-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S8x64 : Shape := ⟨2, ![8, 64]⟩
abbrev S8x4096x64 : Shape := ⟨3, ![8, 4096, 64]⟩
abbrev S1152x1024 : Shape := ⟨2, ![1152, 1024]⟩
abbrev S1024 : Shape := ⟨1, ![1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S1152x1024 : S_.BroadcastsInDim S1152x1024 (![] : Fin 0 → Fin S1152x1024.rank)
  reducesTo_S1152x1024_S_d0_1 : S1152x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1152x1024 .f32) (main_arg7 : FVec F S1024 .f32) (main_arg8 : FVec F S1024x1024 .f32) (main_arg9 : FVec F S1024 .f32) (main_v13 : IVec S_ 1) (main_v16 : IVec S1152x1024 1) : IVec S_ 1 :=
  let main_c_5 : IVec S_ 1 := constantI S_ 1 1#1
  let main_v17 : IVec S_ 1 := (fun x v => Host.reduce IntOp.andi x v reducesTo_S1152x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1152x1024 .f32 := Host.absf main_arg6
  let main_cst_8 : FVec F S_ .f32 := constant S_ .f32 0x7F800000#32
  let main_v25 : FVec F S1152x1024 .f32 := broadcastInDim S1152x1024 ![] bcast_S_S1152x1024 main_cst_8
  let main_v26 : IVec S1152x1024 1 := cmpf .olt main_v24 main_v25
  let main_c_9 : IVec S_ 1 := constantI S_ 1 1#1
  let main_v27 : IVec S_ 1 := (fun x v => Host.reduce IntOp.andi x v reducesTo_S1152x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S8x4096x1024 .f32) (main_arg1 : IVec S8x4096 32) (main_arg2 : FVec F S8x64 .f32) (main_arg3 : FVec F S8x4096x64 .f32) (main_arg4 : FVec F S1152x1024 .f32) (main_arg5 : FVec F S1024 .f32) (main_arg6 : FVec F S1152x1024 .f32) (main_arg7 : FVec F S1024 .f32) (main_arg8 : FVec F S1024x1024 .f32) (main_arg9 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x64 .f32 := Host.absf main_arg2
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8x4096x64 .f32 := Host.absf main_arg3
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S1152x1024 .f32 := Host.absf main_arg4
  let main_cst_4 : FVec F S_ .f32 := constant S_ .f32 0x7F800000#32
  let main_v15 : FVec F S1152x1024 .f32 := broadcastInDim S1152x1024 ![] bcast_S_S1152x1024 main_cst_4
  let main_v16 : IVec S1152x1024 1 := cmpf .olt main_v14 main_v15
  fn_part1 (F := F) main_arg5 main_arg6 main_arg7 main_arg8 main_arg9 main_v13 main_v16
-- ==== Kernel.lean ====
abbrev S8x4096x1024 : Shape := ⟨3, ![8, 4096, 1024]⟩
abbrev S8x4096 : Shape := ⟨2, ![8, 4096]⟩
abbrev S8x64 : Shape := ⟨2, ![8, 64]⟩
abbrev S8x4096x64 : Shape := ⟨3, ![8, 4096, 64]⟩
abbrev S1152x1024 : Shape := ⟨2, ![1152, 1024]⟩
abbrev S1024 : Shape := ⟨1, ![1024]⟩
abbrev S1024x1024 : Shape := ⟨2, ![1024, 1024]⟩
abbrev S64x1024 : Shape := ⟨2, ![64, 1024]⟩
abbrev S8x1024 : Shape := ⟨2, ![8, 1024]⟩
abbrev S1x1024 : Shape := ⟨2, ![1, 1024]⟩
abbrev S8x1x1024 : Shape := ⟨3, ![8, 1, 1024]⟩
abbrev S8x1x2048 : Shape := ⟨3, ![8, 1, 2048]⟩
abbrev S1024x2048 : Shape := ⟨2, ![1024, 2048]⟩
abbrev S64x2048 : Shape := ⟨2, ![64, 2048]⟩
abbrev S8x32x128 : Shape := ⟨3, ![8, 32, 128]⟩
abbrev S1x1024x1024 : Shape := ⟨3, ![1, 1024, 1024]⟩
abbrev S1x1024x64 : Shape := ⟨3, ![1, 1024, 64]⟩
abbrev S1x1x2048 : Shape := ⟨3, ![1, 1, 2048]⟩
abbrev S1x8x128 : Shape := ⟨3, ![1, 8, 128]⟩
abbrev S1024x64 : Shape := ⟨2, ![1024, 64]⟩
abbrev S1x2048 : Shape := ⟨2, ![1, 2048]⟩
abbrev S8x128 : Shape := ⟨2, ![8, 128]⟩
abbrev S8x128x1024 : Shape := ⟨3, ![8, 128, 1024]⟩

abbrev nBuf : Space → Nat
  | .hbm => 34
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x64, .f32⟩
  | .hbm, ⟨3, _⟩ => ⟨S8x4096x64, .f32⟩
  | .hbm, ⟨4, _⟩ => ⟨S1152x1024, .f32⟩
  | .hbm, ⟨5, _⟩ => ⟨S1024, .f32⟩
  | .hbm, ⟨6, _⟩ => ⟨S1152x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S64x1024, .f32⟩
  | .hbm, ⟨12, _⟩ => ⟨S64x1024, .f32⟩
  | .hbm, ⟨13, _⟩ => ⟨S1024x1024, .f32⟩
  | .hbm, ⟨14, _⟩ => ⟨S64x1024, .f32⟩
  | .hbm, ⟨15, _⟩ => ⟨S64x1024, .f32⟩
  | .hbm, ⟨16, _⟩ => ⟨S8x1024, .f32⟩
  | .hbm, ⟨17, _⟩ => ⟨S1x1024, .f32⟩
  | .hbm, ⟨18, _⟩ => ⟨S8x1024, .f32⟩
  | .hbm, ⟨19, _⟩ => ⟨S8x1024, .f32⟩
  | .hbm, ⟨20, _⟩ => ⟨S8x1x1024, .f32⟩
  | .hbm, ⟨21, _⟩ => ⟨S8x1024, .f32⟩
  | .hbm, ⟨22, _⟩ => ⟨S1x1024, .f32⟩
  | .hbm, ⟨23, _⟩ => ⟨S8x1024, .f32⟩
  | .hbm, ⟨24, _⟩ => ⟨S8x1024, .f32⟩
  | .hbm, ⟨25, _⟩ => ⟨S8x1x1024, .f32⟩
  | .hbm, ⟨26, _⟩ => ⟨S8x1x2048, .f32⟩
  | .hbm, ⟨27, _⟩ => ⟨S1024x2048, .f32⟩
  | .hbm, ⟨28, _⟩ => ⟨S1024x2048, .bf16⟩
  | .hbm, ⟨29, _⟩ => ⟨S64x2048, .f32⟩
  | .hbm, ⟨30, _⟩ => ⟨S64x2048, .bf16⟩
  | .hbm, ⟨31, _⟩ => ⟨S8x32x128, .i32⟩
  | .hbm, ⟨32, _⟩ => ⟨S8x32x128, .f32⟩
  | .hbm, ⟨33, _⟩ => ⟨S8x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1x2048, .f32⟩
  | .local _ .vmem, ⟨5, _⟩ => ⟨S1x1x2048, .f32⟩
  | .local _ .vmem, ⟨6, _⟩ => ⟨S1x8x128, .i32⟩
  | .local _ .vmem, ⟨7, _⟩ => ⟨S1x8x128, .i32⟩
  | .local _ .vmem, ⟨8, _⟩ => ⟨S1024x2048, .bf16⟩
  | .local _ .vmem, ⟨9, _⟩ => ⟨S64x2048, .bf16⟩
  | .local _ .vmem, ⟨10, _⟩ => ⟨S1x8x128, .f32⟩
  | .local _ .vmem, ⟨11, _⟩ => ⟨S1x8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S1152x1024_S1024x1024_0_0 : S1152x1024.Slices ![0, 0] S1024x1024
  slices_S1152x1024_S64x1024_1024_0 : S1152x1024.Slices ![1024, 0] S64x1024
  slices_S1152x1024_S64x1024_1088_0 : S1152x1024.Slices ![1088, 0] S64x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  shapeCasts_S8x1024_S8x1x1024 : S8x1024.ShapeCasts S8x1x1024
  concatenates_S8x1x1024_S8x1x1024_S8x1x2048_d2 : Shape.Concatenates [S8x1x1024, S8x1x1024] S8x1x2048 2
  concatenates_S1024x1024_S1024x1024_S1024x2048_d1 : Shape.Concatenates [S1024x1024, S1024x1024] S1024x2048 1
  bitsLt_bf16_f32 : FTy.bits .bf16 < FTy.bits .f32
  concatenates_S64x1024_S64x1024_S64x2048_d1 : Shape.Concatenates [S64x1024, S64x1024] S64x2048 1
  shapeCasts_S8x4096_S8x32x128 : S8x4096.ShapeCasts S8x32x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  broadcasts_S1x2048_S1024x2048 : S1x2048.Broadcasts S1024x2048
  slices_S1024x2048_o0_0_S1024x1024 : S1024x2048.Slices ![0, 0] S1024x1024
  slices_S1024x2048_o0_1024_S1024x1024 : S1024x2048.Slices ![0, 1024] S1024x1024
  shapeCasts_S1024x1024_S8x128x1024 : S1024x1024.ShapeCasts S8x128x1024
  reduces_S8x128x1024_S8x128 : S8x128x1024.Reduces [2] S8x128
  shapeCasts_S8x128_S1x8x128 : S8x128.ShapeCasts S1x8x128
  shapeCasts_S8x32x128_S8x4096 : S8x32x128.ShapeCasts S8x4096
  dot_S8x64_S64x1024_S8x1024_1_0_0_1_n_n_wf : DotDims.WF S8x64 S64x1024 S8x1024 [1] [0] [0] [1] [] []
  dot_S1024x1024_S1024x2048_S1024x2048_1_0_0_1_n_n_wf : DotDims.WF S1024x1024 S1024x2048 S1024x2048 [1] [0] [0] [1] [] []
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x4096x64.size a
  hwx0_1 : ∀ i : grid0.Coords, EltTy.bits .f32 = 32 ∨ (Rect.block (s := S8x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x32x128.size a
  hwx0_3 : ∀ i : grid0.Coords, EltTy.bits .i32 = 32 ∨ (Rect.block (s := S8x32x128) S1x8x128.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S8x32x128.size a
  hwx0_6 : ∀ i : grid0.Coords, EltTy.bits .f32 = 32 ∨ (Rect.block (s := S8x32x128) S1x8x128.size (cc0_transform_6 i) (hinb0_6 i)).WholeWords (EltTy.packing .f32)

variable [Facts₀]

def dot_S8x64_S64x1024_S8x1024_1_0_0_1_n_n : DotDims S8x64 S64x1024 S8x1024 where
  lhsContracting := [1]
  rhsContracting := [0]
  lhsNonContracting := [0]
  rhsNonContracting := [1]
  lhsBatch := []
  rhsBatch := []
  wf := dot_S8x64_S64x1024_S8x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S8x64 : Shape := ⟨2, ![8, 64]⟩
abbrev S8x4096x64 : Shape := ⟨3, ![8, 4096, 64]⟩
abbrev S1152x1024 : Shape := ⟨2, ![1152, 1024]⟩
abbrev S1024 : Shape := ⟨1, ![1024]⟩
abbrev S1024x1024 : Shape := ⟨2, ![1024, 1024]⟩
abbrev S8x1x64 : Shape := ⟨3, ![8, 1, 64]⟩
abbrev S8x4096x1152 : Shape := ⟨3, ![8, 4096, 1152]⟩
abbrev S1x1x1024 : Shape := ⟨3, ![1, 1, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x64, .f32⟩
  | .hbm, ⟨3, _⟩ => ⟨S8x4096x64, .f32⟩
  | .hbm, ⟨4, _⟩ => ⟨S1152x1024, .f32⟩
  | .hbm, ⟨5, _⟩ => ⟨S1024, .f32⟩
  | .hbm, ⟨6, _⟩ => ⟨S1152x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x1x64, .f32⟩
  | .hbm, ⟨11, _⟩ => ⟨S8x4096x64, .f32⟩
  | .hbm, ⟨12, _⟩ => ⟨S8x4096x1152, .f32⟩
  | .hbm, ⟨13, _⟩ => ⟨S8x4096x1024, .f32⟩
  | .hbm, ⟨14, _⟩ => ⟨S1x1x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .i32⟩
  | .hbm, ⟨42, _⟩ => ⟨S8x4096, .i32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_call3_v0 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  bcast_S8x64_S8x1x64_0_2 : S8x64.BroadcastsInDim S8x1x64 (![0, 2] : Fin 2 → Fin S8x1x64.rank)
  bcast_S8x1x64_S8x4096x64_0_1_2 : S8x1x64.BroadcastsInDim S8x4096x64 (![0, 1, 2] : Fin 3 → Fin S8x4096x64.rank)
  concatenates_S8x4096x1024_S8x4096x64_S8x4096x64_S8x4096x1152_d2 : Shape.Concatenates [S8x4096x1024, S8x4096x64, S8x4096x64] S8x4096x1152 2
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S8x4096x1024_S8x4096_d2 : S8x4096x1024.ReducesTo [2] S8x4096
  h_S_ : 0 < S_.numel
  bcast_S_S8x4096 : S_.BroadcastsInDim S8x4096 (![] : Fin 0 → Fin S8x4096.rank)
  dot_S8x4096x1152_S1152x1024_S8x4096x1024_2_0_01_1_n_n_wf : DotDims.WF S8x4096x1152 S1152x1024 S8x4096x1024 [2] [0] [0, 1] [1] [] []
  dot_S8x4096x1024_S1024x1024_S8x4096x1024_2_0_01_1_n_n_wf : DotDims.WF S8x4096x1024 S1024x1024 S8x4096x1024 [2] [0] [0, 1] [1] [] []

variable [Facts₀]

def dot_S8x4096x1152_S1152x1024_S8x4096x1024_2_0_01_1_n_n : DotDims S8x4096x1152 S1152x1024 S8x4096x1024 where
  lhsContracting := [2]
  rhsContracting := [0]
  lhsNonContracting := [0, 1]
  rhsNonContracting := [1]
  lhsBatch := []
  rhsBatch := []
  wf := dot_S8x4096x1152_S1152x1024_S8x4096x1024_2_0_01_1_n_n_wf
def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf

class Facts : Prop extends Facts₀ where

variable [Facts]
-- ==== Proof.BlockReads.lean ====
/-
  Where each window's block sits in its array.

  The grid has 8 · 4 points; point (b, j) works on batch row b and on tokens 1024·j .. 1024·j + 1023. Its blocks are: rows
  1024·j.. of batch b of the token array and of the local-feature array; row b of the fused bias array; the 8 rows 8·j..8·j+7 of
  batch b of the mask and of the output, both laid out as [8, 32, 128] (token s at (s / 128, s % 128)); and the two fused weight
  matrices whole. A block's element sits at block index × block size + its coordinate inside the block, on every axis; the
  block indices are the printed index maps, whose values are decided once over the 32 points.
-/
import proofs.«139711_j89232240541956_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps over the grid: the output's block index is (b, j, 0) with b < 8 and j < 4; the token, local-feature and
    mask windows move with it; the bias window stays on batch row b; the weight windows do not move. -/
theorem idx_facts : ∀ t : Fin cfg0.N,
    win0_6.index t (0 : Fin 3) < 8 ∧ win0_6.index t (1 : Fin 3) < 4 ∧ win0_6.index t (2 : Fin 3) = 0
    ∧ win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = win0_6.index t (1 : Fin 3) ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every (batch row, token tile) is some point's. -/
theorem idx_onto : ∀ (b : Fin 8) (j : Fin 4), ∃ t : Fin cfg0.N, win0_6.index t = ![b.val, j.val, 0] :=
  (by decide +kernel : ∀ (b : Fin 8) (j : Fin 4), ∃ t : Fin grid0.N, win0_6.index t = ![b.val, j.val, 0])

/-- The token block at point t: element (0, r, e) is the token array at (b, 1024·j + r, e). -/
theorem tok_apply (c : Dev nD) (t : Fin cfg0.N) (x : S1x1024x1024.Idx) (k : S8x4096x1024.Idx)
    (h0 : (k 0).val = win0_6.index t (0 : Fin 3)) (h1 : (k 1).val = win0_6.index t (1 : Fin 3) * 1024 + (x 1).val) (h2 : (k 2).val = (x 2).val) :
    (iblk m c 0 t : Vec Ideal S1x1024x1024 .f32) x = (V m c main_arg0 : S8x4096x1024.Idx → EReal) k := by
  obtain ⟨-, -, -, e0, e1, e2, -⟩ := idx_facts t
  unfold iblk
  rw [View.read_apply]
  show V m c main_arg0 _ = V m c main_arg0 _
  refine congrArg (V m c main_arg0) (funext fun a => Fin.ext ?_)
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 1024 + 1 * (x 2).val = (k 2).val; omega

/-- The local-feature block at point t: element (0, r, e) is the local-feature array at (b, 1024·j + r, e). -/
theorem loc_apply (c : Dev nD) (t : Fin cfg0.N) (x : S1x1024x64.Idx) (k : S8x4096x64.Idx)
    (h0 : (k 0).val = win0_6.index t (0 : Fin 3)) (h1 : (k 1).val = win0_6.index t (1 : Fin 3) * 1024 + (x 1).val) (h2 : (k 2).val = (x 2).val) :
    (iblk m c 1 t : Vec Ideal S1x1024x64 .f32) x = (V m c main_arg3 : S8x4096x64.Idx → EReal) k := by
  obtain ⟨-, -, -, -, -, -, e0, e1, e2, -⟩ := idx_facts t
  unfold iblk
  rw [View.read_apply]
  show V m c main_arg3 _ = V m c main_arg3 _
  refine congrArg (V m c main_arg3) (funext fun a => Fin.ext ?_)
  have hx0 : (x 0).val < 1 := (x 0).isLt
  match a with
  | ⟨0, _⟩ => show win0_1.index t (0 : Fin 3) * 1 + 1 * (x 0).val = (k 0).val; omega
  | ⟨1, _⟩ => show win0_1.index t (1 : Fin 3) * 1024 + 1 * (x 1).val = (k 1).val; omega
  | ⟨2, _⟩ => show win0_1.index t (2 : Fin 3) * 64 + 1 * (x 2).val = (k 2).val; omega

/-- The bias block at point t: element (0, 0, c) is the fused bias array at (b, 0, c). -/
theorem bias_apply (c : Dev nD) (t : Fin cfg0.N) (x : S1x1x2048.Idx) (k : S8x1x2048.Idx)
    (h0 : (k 0).val = win0_6.index t (0 : Fin 3)) (h2 : (k 2).val = (x 2).val) :
    (iblk m c 2 t : Vec Ideal S1x1x2048 .f32) x = (V m c main_v16 : S8x1x2048.Idx → EReal) k := by
  obtain ⟨-, -, -, -, -, -, -, -, -, e0, e1, e2, -⟩ := idx_facts t
  unfold iblk
  rw [View.read_apply]
  show V m c main_v16 _ = V m c main_v16 _
  refine congrArg (V m c main_v16) (funext fun a => Fin.ext ?_)
  have hx0 : (x 0).val < 1 := (x 0).isLt
  have hx1 : (x 1).val < 1 := (x 1).isLt
  have hk1 : (k 1).val < 1 := (k 1).isLt
  match a with
  | ⟨0, _⟩ => show win0_2.index t (0 : Fin 3) * 1 + 1 * (x 0).val = (k 0).val; omega
  | ⟨1, _⟩ => show win0_2.index t (1 : Fin 3) * 1 + 1 * (x 1).val = (k 1).val; omega
  | ⟨2, _⟩ => show win0_2.index t (2 : Fin 3) * 2048 + 1 * (x 2).val = (k 2).val; omega

/-- The mask block at point t: element (0, p, q) is the re-laid mask at (b, 8·j + p, q). -/
theorem msk_apply (c : Dev nD) (t : Fin cfg0.N) (x : S1x8x128.Idx) (k : S8x32x128.Idx)
    (h0 : (k 0).val = win0_6.index t (0 : Fin 3)) (h1 : (k 1).val = win0_6.index t (1 : Fin 3) * 8 + (x 1).val) (h2 : (k 2).val = (x 2).val) :
    (iblk m c 3 t : Vec Ideal S1x8x128 .i32) x = (V m c main_v21 : S8x32x128.Idx → BitVec 32) k := by
  obtain ⟨-, -, -, -, -, -, -, -, -, -, -, -, e0, e1, e2, -⟩ := idx_facts t
  unfold iblk
  rw [View.read_apply]
  show V m c main_v21 _ = V m c main_v21 _
  refine congrArg (V m c main_v21) (funext fun a => Fin.ext ?_)
  have hx0 : (x 0).val < 1 := (x 0).isLt
  match a with
  | ⟨0, _⟩ => show win0_3.index t (0 : Fin 3) * 1 + 1 * (x 0).val = (k 0).val; omega
  | ⟨1, _⟩ => show win0_3.index t (1 : Fin 3) * 8 + 1 * (x 1).val = (k 1).val; omega
  | ⟨2, _⟩ => show win0_3.index t (2 : Fin 3) * 128 + 1 * (x 2).val = (k 2).val; omega

/-- The token-weight block at every point is the whole fused [1024, 2048] matrix. -/
theorem wh_apply (c : Dev nD) (t : Fin cfg0.N) (x : S1024x2048.Idx) :
    (iblk m c 4 t : Vec Ideal S1024x2048 .bf16) x = (V m c main_v18 : S1024x2048.Idx → EReal) x := by
  obtain ⟨-, -, -, -, -, -, -, -, -, -, -, -, -, -, -, e0, e1, -⟩ := idx_facts t
  unfold iblk
  rw [View.read_apply]
  show V m c main_v18 _ = V m c main_v18 _
  refine congrArg (V m c main_v18) (funext fun a => Fin.ext ?_)
  match a with
  | ⟨0, _⟩ => show win0_4.index t (0 : Fin 2) * 1024 + 1 * (x 0).val = (x 0).val; omega
  | ⟨1, _⟩ => show win0_4.index t (1 : Fin 2) * 2048 + 1 * (x 1).val = (x 1).val; omega

/-- The local-weight block at every point is the whole fused [64, 2048] matrix. -/
theorem wl_apply (c : Dev nD) (t : Fin cfg0.N) (x : S64x2048.Idx) :
    (iblk m c 5 t : Vec Ideal S64x2048 .bf16) x = (V m c main_v20 : S64x2048.Idx → EReal) x := by
  obtain ⟨-, -, -, -, -, -, -, -, -, -, -, -, -, -, -, -, -, e0, e1⟩ := idx_facts t
  unfold iblk
  rw [View.read_apply]
  show V m c main_v20 _ = V m c main_v20 _
  refine congrArg (V m c main_v20) (funext fun a => Fin.ext ?_)
  match a with
  | ⟨0, _⟩ => show win0_5.index t (0 : Fin 2) * 64 + 1 * (x 0).val = (x 0).val; omega
  | ⟨1, _⟩ => show win0_5.index t (1 : Fin 2) * 2048 + 1 * (x 1).val = (x 1).val; omega

/-- The output block at point t: its element (0, p, q) sits at (b, 8·j + p, q) of the [8, 32, 128] output array. -/
theorem out_emb (t : Fin cfg0.N) (x : S1x8x128.Idx) (k : S8x32x128.Idx)
    (h0 : (k 0).val = win0_6.index t (0 : Fin 3)) (h1 : (k 1).val = win0_6.index t (1 : Fin 3) * 8 + (x 1).val) (h2 : (k 2).val = (x 2).val) :
    ((cfg0.win 6).blk t).view.emb x = k := by
  obtain ⟨-, -, e2, -⟩ := idx_facts t
  refine funext fun a => Fin.ext ?_
  have hx0 : (x 0).val < 1 := (x 0).isLt
  match a with
  | ⟨0, _⟩ => show win0_6.index t (0 : Fin 3) * 1 + 1 * (x 0).val = (k 0).val; omega
  | ⟨1, _⟩ => show win0_6.index t (1 : Fin 3) * 8 + 1 * (x 1).val = (k 1).val; omega
  | ⟨2, _⟩ => show win0_6.index t (2 : Fin 3) * 128 + 1 * (x 2).val = (k 2).val; omega

/-- An index of the output array is in point t's block iff each coordinate is in the block's range on its axis. -/
theorem mem_blk (t : Fin cfg0.N) (i : S8x32x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v22).slice (win0_6.rect t)).set ↔ _
  rw [View.set_slice_whole, Rect.mem_set_unit]
  exact Iff.rfl

/-- Every index of the output array is in the block of a point that writes back: the point of batch row i 0 and token tile i 1 / 8. -/
theorem cover (i : S8x32x128.Idx) : ∃ t : Fin cfg0.N, (cfg0.win 6).flush t = true ∧ i ∈ ((cfg0.win 6).blk t).view.set := by
  have hi0 : (i 0).val < 8 := (i 0).isLt
  have hi1 : (i 1).val < 32 := (i 1).isLt
  have hi2 : (i 2).val < 128 := (i 2).isLt
  obtain ⟨t, ht⟩ := idx_onto ⟨(i 0).val, hi0⟩ ⟨(i 1).val / 8, by omega⟩
  have q0 : win0_6.index t (0 : Fin 3) = (i 0).val := congrFun ht 0
  have q1 : win0_6.index t (1 : Fin 3) = (i 1).val / 8 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8 ≤ (i 1).val ∧ (i 1).val < win0_6.index t (1 : Fin 3) * 8 + 8; omega
  | ⟨2, _⟩ => show win0_6.index t (2 : Fin 3) * 128 ≤ (i 2).val ∧ (i 2).val < win0_6.index t (2 : Fin 3) * 128 + 128; omega

end Cert.KernelIdeal.Blocks

end
-- ==== Proof.BodyValue.lean ====
/-
  The kernel body's arithmetic read at one index, over the extended reals.

  A grid point's body loads a [1,1024,1024] block `x0` of token rows, a [1,1024,64] block `x1` of local features, one
  [1,1,2048] row `x2` of per-batch biases (query channels in columns 0..1023, key channels in columns 1024..2047), an
  [1,8,128] block `x3` of mask words, and the two fused weight matrices `x4` ([1024,2048]) and `x5` ([64,2048]), whose left
  halves are query columns and right halves key columns. For the block's row `r` and a fused column `c` the pre-activation is
      (Σ_e x0[0,r,e]·x4[e,c] + Σ_e x1[0,r,e]·x5[e,c]) + x2[0,0,c];
  the body clamps it at 0 from below, multiplies the query half by the key half column by column, sums over the 1024
  channels, scales by the word 0x3D000000 and puts the fill word wherever the mask word is 1. The 1024 rows of a block are
  laid out as 8 groups of 128: the stored element (p, q) is the value of row 128·p + q. A change of float format is the
  identity here and the matrix products into a zero accumulator are plain sums, so what is left is bookkeeping of indices.
-/
import proofs.«139711_j89232240541956_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx

/-- The pre-activation of block row `r` at fused column `c`, from the loaded blocks. -/
def pre (x0 : Vec Ideal S1x1024x1024 .f32) (x1 : Vec Ideal S1x1024x64 .f32) (x2 : Vec Ideal S1x1x2048 .f32)
    (x4 : Vec Ideal S1024x2048 .bf16) (x5 : Vec Ideal S64x2048 .bf16) (r : Fin 1024) (c : Fin 2048) : EReal :=
  ((∑ e : Fin 1024, x0 (ix3 (0 : Fin 1) r e) * x4 (ix2 e c)) + (∑ e : Fin 64, x1 (ix3 (0 : Fin 1) r e) * x5 (ix2 e c)))
    + x2 (ix3 (0 : Fin 1) (0 : Fin 1) c)

theorem dot_h_lhs0 (i : S1024x2048.Idx) (q : dot_S1024x1024_S1024x2048_S1024x2048_1_0_0_1_n_n.contr.Idx) : (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem dot_h_lhs1 (i : S1024x2048.Idx) (q : dot_S1024x1024_S1024x2048_S1024x2048_1_0_0_1_n_n.contr.Idx) : (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem dot_h_rhs0 (i : S1024x2048.Idx) (q : dot_S1024x1024_S1024x2048_S1024x2048_1_0_0_1_n_n.contr.Idx) : (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem dot_h_rhs1 (i : S1024x2048.Idx) (q : dot_S1024x1024_S1024x2048_S1024x2048_1_0_0_1_n_n.contr.Idx) : (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl
/-- A [1024,1024] by [1024,2048] product into a zero accumulator, at (r, c): the sum over the 1024 contracted entries. -/
theorem dot_h_apply (lhs : FVec Ideal S1024x1024 .bf16) (rhs : FVec Ideal S1024x2048 .bf16) (r : Fin 1024) (c : Fin 2048) :
    matmul dot_S1024x1024_S1024x2048_S1024x2048_1_0_0_1_n_n none lhs rhs (constant (F := Ideal) S1024x2048 .f32 0x00000000#32) (ix2 r c)
      = ∑ e : Fin 1024, lhs (ix2 r e) * rhs (ix2 e c) := by
  refine (Ideal.matmul_constant_zero_apply dot_S1024x1024_S1024x2048_S1024x2048_1_0_0_1_n_n none lhs rhs (ix2 r c)).trans ?_
  rw [← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 r c) ((contrEquiv1 dot_S1024x1024_S1024x2048_S1024x2048_1_0_0_1_n_n 1024 rfl rfl).symm k) = ix2 r k :=
    funext fun a => Fin.ext (by
      match a with
      | ⟨0, _⟩ => exact dot_h_lhs0 _ _
      | ⟨1, _⟩ => exact (dot_h_lhs1 _ _).trans hk)
  have er : dot_S1024x1024_S1024x2048_S1024x2048_1_0_0_1_n_n.rhsIdx (ix2 r c) ((contrEquiv1 dot_S1024x1024_S1024x2048_S1024x2048_1_0_0_1_n_n 1024 rfl rfl).symm k) = ix2 k c :=
    funext fun a => Fin.ext (by
      match a with
      | ⟨0, _⟩ => exact (dot_h_rhs0 _ _).trans hk
      | ⟨1, _⟩ => exact dot_h_rhs1 _ _)
  rw [el, er]

theorem dot_l_lhs0 (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem dot_l_lhs1 (i : S1024x2048.Idx) (q : dot_S1024x64_S64x2048_S1024x2048_1_0_0_1_n_n.contr.Idx) : (dot_S1024x64_S64x2048_S1024x2048_1_0_0_1_n_n.lhsIdx i q 1).val = (q ⟨0, by decide⟩).val :=
  dot_S1024x64_S64x2048_S1024x2048_1_0_0_1_n_n.lhsIdx_val_of_single rfl i q
theorem dot_l_rhs0 (i : S1024x2048.Idx) (q : dot_S1024x64_S64x2048_S1024x2048_1_0_0_1_n_n.contr.Idx) : (dot_S1024x64_S64x2048_S1024x2048_1_0_0_1_n_n.rhsIdx i q 0).val = (q ⟨0, by decide⟩).val :=
  dot_S1024x64_S64x2048_S1024x2048_1_0_0_1_n_n.rhsIdx_val_of_single rfl i q
theorem dot_l_rhs1 (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl
/-- A [1024,64] by [64,2048] product into a zero accumulator, at (r, c): the sum over the 64 contracted entries. -/
theorem dot_l_apply (lhs : FVec Ideal S1024x64 .bf16) (rhs : FVec Ideal S64x2048 .bf16) (r : Fin 1024) (c : Fin 2048) :
    matmul dot_S1024x64_S64x2048_S1024x2048_1_0_0_1_n_n none lhs rhs (constant (F := Ideal) S1024x2048 .f32 0x00000000#32) (ix2 r c)
      = ∑ e : Fin 64, lhs (ix2 r e) * rhs (ix2 e c) := by
  refine (Ideal.matmul_constant_zero_apply dot_S1024x64_S64x2048_S1024x2048_1_0_0_1_n_n none lhs rhs (ix2 r c)).trans ?_
  rw [← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 r c) ((contrEquiv1 dot_S1024x64_S64x2048_S1024x2048_1_0_0_1_n_n 64 rfl rfl).symm k) = ix2 r k :=
    funext fun a => Fin.ext (by
      match a with
      | ⟨0, _⟩ => exact dot_l_lhs0 _ _
      | ⟨1, _⟩ => exact (dot_l_lhs1 _ _).trans hk)
  have er : dot_S1024x64_S64x2048_S1024x2048_1_0_0_1_n_n.rhsIdx (ix2 r c) ((contrEquiv1 dot_S1024x64_S64x2048_S1024x2048_1_0_0_1_n_n 64 rfl rfl).symm k) = ix2 k c :=
    funext fun a => Fin.ext (by
      match a with
      | ⟨0, _⟩ => exact (dot_l_rhs0 _ _).trans hk
      | ⟨1, _⟩ => exact dot_l_rhs1 _ _)
  rw [el, er]

/-- The clamped buffer of the body (relu of the pre-activations), as the body spells it. -/
def act (x0 : Vec Ideal S1x1024x1024 .f32) (x1 : Vec Ideal S1x1024x64 .f32) (x2 : Vec Ideal S1x1x2048 .f32)
    (x4 : Vec Ideal S1024x2048 .bf16) (x5 : Vec Ideal S64x2048 .bf16) : FVec Ideal S1024x2048 .f32 :=
  maximumf
    (addf
      (addf
        (matmul dot_S1024x1024_S1024x2048_S1024x2048_1_0_0_1_n_n none
          (truncf .bf16 (shapeCast S1024x1024 x0 shapeCasts_S1x1024x1024_S1024x1024 : FVec Ideal S1024x1024 .f32) bitsLt_bf16_f32)
          (shapeCast S1024x2048 x4 shapeCasts_S1024x2048_S1024x2048 : FVec Ideal S1024x2048 .bf16)
          (constant (F := Ideal) S1024x2048 .f32 0x00000000#32))
        (matmul dot_S1024x64_S64x2048_S1024x2048_1_0_0_1_n_n none
          (truncf .bf16 (shapeCast S1024x64 x1 shapeCasts_S1x1024x64_S1024x64 : FVec Ideal S1024x64 .f32) bitsLt_bf16_f32)
          (shapeCast S64x2048 x5 shapeCasts_S64x2048_S64x2048 : FVec Ideal S64x2048 .bf16)
          (constant (F := Ideal) S1024x2048 .f32 0x00000000#32)))
      (broadcastTo S1024x2048 (shapeCast S1x2048 x2 shapeCasts_S1x1x2048_S1x2048 : FVec Ideal S1x2048 .f32) broadcasts_S1x2048_S1024x2048))
    (broadcast S1024x2048 (Scalar.ofBits (F := Ideal) .f32 0x00000000#32))

/-- The clamped buffer at (r, c) is the pre-activation clamped at 0. -/
theorem act_apply (x0 : Vec Ideal S1x1024x1024 .f32) (x1 : Vec Ideal S1x1024x64 .f32) (x2 : Vec Ideal S1x1x2048 .f32)
    (x4 : Vec Ideal S1024x2048 .bf16) (x5 : Vec Ideal S64x2048 .bf16) (r : Fin 1024) (c : Fin 2048) :
    act x0 x1 x2 x4 x5 (ix2 r c) = max (pre x0 x1 x2 x4 x5 r c) 0 := by
  unfold act pre
  rw [maximumf_apply, addf_apply, addf_apply, dot_h_apply, dot_l_apply, broadcast_apply,
    broadcastTo_1b_ab_apply, shapeCast_1ab_ab_apply]
  have z : Scalar.ofBits (F := Ideal) .f32 0x00000000#32 = (0 : EReal) := Ideal.ofBits_zero_f32
  rw [z]
  refine congrArg (max · 0) (congrArg (· + _) (congrArg₂ (· + ·) ?_ ?_))
  · refine Finset.sum_congr rfl fun e _ => ?_
    rw [truncf_apply, shapeCast_1ab_ab_apply, shapeCast_self]
  · refine Finset.sum_congr rfl fun e _ => ?_
    rw [truncf_apply, shapeCast_1ab_ab_apply, shapeCast_self]

/-- The rest of the body after the clamped buffer: product of the halves, sum over channels, scale, mask. -/
def tail (v20 : FVec Ideal S1024x2048 .f32) (x3 : Vec Ideal S1x8x128 .i32) : FVec Ideal S8x128 .f32 :=
  select
    (cmpi .eq (shapeCast S8x128 x3 shapeCasts_S1x8x128_S8x128 : IVec S8x128 32) (broadcast S8x128 (1#32 : BitVec 32)))
    (broadcast S8x128 (Scalar.ofBits (F := Ideal) .f32 0xCE6E6B28#32))
    (mulf
      (multiReduction .add [2] S8x128
        (shapeCast S8x128x1024
          (mulf (extractStridedSlice S1024x1024 ![0, 0] v20 slices_S1024x2048_o0_0_S1024x1024)
                (extractStridedSlice S1024x1024 ![0, 1024] v20 slices_S1024x2048_o0_1024_S1024x1024) : FVec Ideal S1024x1024 .f32)
          shapeCasts_S1024x1024_S8x128x1024 : FVec Ideal S8x128x1024 .f32)
        0x00000000#32 reduces_S8x128x1024_S8x128 (.inl rfl) rfl)
      (broadcast S8x128 (Scalar.ofBits (F := Ideal) .f32 0x3D000000#32)))

/-- The body's payload is the tail of its clamped buffer (the same text, cut in two). -/
theorem pay_eq (x0 : Vec Ideal S1x1024x1024 .f32) (x1 : Vec Ideal S1x1024x64 .f32) (x2 : Vec Ideal S1x1x2048 .f32)
    (x3 : Vec Ideal S1x8x128 .i32) (x4 : Vec Ideal S1024x2048 .bf16) (x5 : Vec Ideal S64x2048 .bf16) :
    k0_pay2 x0 x1 x2 x3 x4 x5 = tail (act x0 x1 x2 x4 x5) x3 := rfl

/-- The tail at (p, q): the mask word of (0, p, q) chooses between the fill word and the scaled sum, over the 1024 channels,
    of the clamped buffer's query entry times its key entry in row 128·p + q. -/
theorem tail_apply (v20 : FVec Ideal S1024x2048 .f32) (x3 : Vec Ideal S1x8x128 .i32) (p : Fin 8) (q : Fin 128) :
    tail v20 x3 (ix2 p q)
      = Scalar.select (IntOp.cmpi .eq (x3 (ix3 (0 : Fin 1) p q)) 1#32) (Ideal.ofBits .f32 0xCE6E6B28#32)
          ((∑ a : Fin 1024, v20 (ix2 (⟨128 * p.val + q.val, by omega⟩ : Fin 1024) (⟨a.val, by omega⟩ : Fin 2048))
                * v20 (ix2 (⟨128 * p.val + q.val, by omega⟩ : Fin 1024) (⟨1024 + a.val, by omega⟩ : Fin 2048)))
            * Ideal.ofBits .f32 0x3D000000#32) := by
  unfold tail
  rw [select_apply, mulf_apply, broadcast_apply, broadcast_apply]
  show Scalar.select (IntOp.cmpi .eq (shapeCast S8x128 x3 shapeCasts_S1x8x128_S8x128 (ix2 p q)) (broadcast S8x128 (1#32 : BitVec 32) (ix2 p q))) _ _ = _
  rw [shapeCast_1ab_ab_apply, broadcast_apply]
  refine congrArg (Scalar.select _ _) (congrArg (· * _) ?_)
  refine (Ideal.multiReduction_add_single (a := 2) _ _ reduces_S8x128x1024_S8x128 _ _ (ix2 p q)).trans ?_
  refine Finset.sum_congr rfl fun a _ => ?_
  have hl : reduces_S8x128x1024_S8x128.lift (ix2 p q) a = ix3 p q a :=
    funext fun d => Fin.ext (by match d with | ⟨0, _⟩ => rfl | ⟨1, _⟩ => rfl | ⟨2, _⟩ => rfl)
  rw [hl]
  refine (shapeCast_apply _ shapeCasts_S1024x1024_S8x128x1024 (ix3 p q a) (ix2 (⟨128 * p.val + q.val, by omega⟩ : Fin 1024) a) (by
    rw [Shape.rowMajor_val_three, Shape.rowMajor_val_two]
    show (128 * p.val + q.val) * 1024 + a.val = (p.val * 128 + q.val) * 1024 + a.val
    omega)).trans ?_
  rw [mulf_apply]
  refine congrArg₂ (· * ·) ?_ ?_
  · refine extractStridedSlice_apply _ v20 slices_S1024x2048_o0_0_S1024x1024 _ _ fun d => ?_
    match d with
    | ⟨0, _⟩ => show 128 * p.val + q.val = 0 + (128 * p.val + q.val); omega
    | ⟨1, _⟩ => show a.val = 0 + a.val; omega
  · refine extractStridedSlice_apply _ v20 slices_S1024x2048_o0_1024_S1024x1024 _ _ fun d => ?_
    match d with
    | ⟨0, _⟩ => show 128 * p.val + q.val = 0 + (128 * p.val + q.val); omega
    | ⟨1, _⟩ => show 1024 + a.val = 1024 + a.val; rfl

/-- WHAT THE BODY STORES at (u, p, q) of its [1,8,128] output block, from the loaded blocks. -/
theorem pay_apply (x0 : Vec Ideal S1x1024x1024 .f32) (x1 : Vec Ideal S1x1024x64 .f32) (x2 : Vec Ideal S1x1x2048 .f32)
    (x3 : Vec Ideal S1x8x128 .i32) (x4 : Vec Ideal S1024x2048 .bf16) (x5 : Vec Ideal S64x2048 .bf16)
    (u : Fin 1) (p : Fin 8) (q : Fin 128) :
    k0_pay1 (k0_pay2 x0 x1 x2 x3 x4 x5) (ix3 u p q)
      = Scalar.select (IntOp.cmpi .eq (x3 (ix3 (0 : Fin 1) p q)) 1#32) (Ideal.ofBits .f32 0xCE6E6B28#32)
          ((∑ a : Fin 1024,
              max (pre x0 x1 x2 x4 x5 (⟨128 * p.val + q.val, by omega⟩ : Fin 1024) (⟨a.val, by omega⟩ : Fin 2048)) 0
                * max (pre x0 x1 x2 x4 x5 (⟨128 * p.val + q.val, by omega⟩ : Fin 1024) (⟨1024 + a.val, by omega⟩ : Fin 2048)) 0)
            * Ideal.ofBits .f32 0x3D000000#32) := by
  unfold k0_pay1
  rw [pay_eq]
  refine (shapeCast_ab_1ab_apply _ shapeCasts_S8x128_S1x8x128 u p q).trans ?_
  rw [tail_apply]
  simp only [act_apply]

end Cert.KernelIdeal.Body

end
-- ==== Proof.KernelArgs.lean ====
/-
  The kernel program's argument arrays as launched, named with their value types: token rows `h`, mask words, per-batch global
  features `g`, local features `l`, and the query and key weight matrices and biases. (The value weights and bias are arguments
  too; the scores do not depend on them.)
-/
import proofs.«139711_j89232240541956_2_alg».proof.Proof.Gen.KernelIdeal.Frame
import Idealize.ShloMosaic.PureOps.Ideal

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

abbrev argH : S8x4096x1024.Idx → EReal := m ((c : Thread nD τ).loc main_arg0)
abbrev argMask : S8x4096.Idx → BitVec 32 := m ((c : Thread nD τ).loc main_arg1)
abbrev argG : S8x64.Idx → EReal := m ((c : Thread nD τ).loc main_arg2)
abbrev argL : S8x4096x64.Idx → EReal := m ((c : Thread nD τ).loc main_arg3)
abbrev argWq : S1152x1024.Idx → EReal := m ((c : Thread nD τ).loc main_arg4)
abbrev argBq : S1024.Idx → EReal := m ((c : Thread nD τ).loc main_arg5)
abbrev argWk : S1152x1024.Idx → EReal := m ((c : Thread nD τ).loc main_arg6)
abbrev argBk : S1024.Idx → EReal := m ((c : Thread nD τ).loc main_arg7)

end Cert.KernelIdeal.Args

end
-- ==== Proof.HostPrefix.lean ====
/-
  What the host lines before the kernel launch leave in the arrays the kernel reads, over extended reals.

  Before the launch the program slices the two 1152-row weight matrices into their three row groups (rows 0..1023, rows
  1024..1087, rows 1088..1151), multiplies the per-batch vector g by the middle group and adds the bias, places the query
  and the key halves side by side along the channel axis, and regroups the mask's 4096 positions as 32 rows of 128. Each
  theorem here reads one of the resulting arrays at an index as an entry, or a sum of products of entries, of the
  argument arrays.
-/
import proofs.«139711_j89232240541956_2_alg».proof.Proof.Gen.KernelIdeal.Frame
import proofs.«139711_j89232240541956_2_alg».proof.Proof.KernelArgs
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Cert.KernelIdeal Cert.KernelIdeal.Gen Cert.KernelIdeal.Args Idealize.ShloMosaic Idealize.ShloMosaic.TcCoe Idealize.SL.Sem
  Idealize.ShloMosaic.StableHlo Idealize.ShloMosaic.ValueIdx

namespace Cert.KernelIdeal.Prefix

variable (m : (ℓ : Loc nD τ sig) → Buf (Elt Ideal) ℓ)

/-- The mask as the kernel reads it: the [8,4096] words regrouped as [8,32,128] in row-major order. -/
theorem mask_apply (c : Dev nD) (b : Fin 8) (r : Fin 32) (q : Fin 128) :
    (V m c main_v21 : S8x32x128.Idx → BitVec 32) (ix3 b r q)
      = argMask m c (ix2 b (⟨128 * r.val + q.val, by omega⟩ : Fin 4096)) := by
  have e : (V m c main_v21 : S8x32x128.Idx → BitVec 32)
      = shapeCast S8x32x128 (argMask m c) shapeCasts_S8x4096_S8x32x128 := by
    show StableHlo.after hostOps0 (fun b => m (c, b)) (Proc.devRef .tc main_v21) = _
    after_results
    rfl
  rw [e]
  refine shapeCast_apply _ _ _ _ ?_
  show (S8x4096.rowMajor (ix2 b ⟨128 * r.val + q.val, _⟩)).val = (S8x32x128.rowMajor (ix3 b r q)).val
  rw [Shape.rowMajor_val_two, Shape.rowMajor_val_three]
  show b.val * 4096 + (128 * r.val + q.val) = (b.val * 32 + r.val) * 128 + q.val
  omega

/-- The high weight block as the kernel reads it: rows 0..1023 of the query weights beside rows 0..1023 of the key
    weights; the conversion to the narrower float type is the identity on extended reals. -/
theorem wh_term (c : Dev nD) :
    (V m c main_v18 : S1024x2048.Idx → EReal)
      = truncf (F := Ideal) .bf16 (concatenate S1024x2048 1
          [⟨S1024x1024, extractStridedSlice S1024x1024 ![0, 0] (argWq m c) slices_S1152x1024_S1024x1024_0_0⟩,
           ⟨S1024x1024, extractStridedSlice S1024x1024 ![0, 0] (argWk m c) slices_S1152x1024_S1024x1024_0_0⟩]
          concatenates_S1024x1024_S1024x1024_S1024x2048_d1) bitsLt_bf16_f32 := by
  show StableHlo.after hostOps0 (fun b => m (c, b)) (Proc.devRef .tc main_v18) = _
  after_results

theorem wh_apply_q (c : Dev nD) (e : Fin 1024) (a : Fin 1024) :
    (V m c main_v18 : S1024x2048.Idx → EReal) (ix2 e (⟨a.val, by omega⟩ : Fin 2048))
      = argWq m c (ix2 (⟨e.val, by omega⟩ : Fin 1152) a) := by
  rw [wh_term, truncf_apply]
  refine (concatenate_pair_apply_left (t := S1024x2048) (s₁ := S1024x1024) (s₂ := S1024x1024) (1 : Fin 2) _ _ _ (ix2 e ⟨a.val, by omega⟩) rfl (ix2 e a) (fun b => by
    match b with
    | ⟨0, _⟩ => rfl
    | ⟨1, _⟩ => rfl)).trans ?_
  refine extractStridedSlice_apply _ _ _ _ _ (fun b => by
    match b with
    | ⟨0, _⟩ => show e.val = 0 + e.val; omega
    | ⟨1, _⟩ => show a.val = 0 + a.val; omega)

theorem wh_apply_k (c : Dev nD) (e : Fin 1024) (a : Fin 1024) :
    (V m c main_v18 : S1024x2048.Idx → EReal) (ix2 e (⟨1024 + a.val, by omega⟩ : Fin 2048))
      = argWk m c (ix2 (⟨e.val, by omega⟩ : Fin 1152) a) := by
  rw [wh_term, truncf_apply]
  refine (concatenate_pair_apply_right (t := S1024x2048) (s₁ := S1024x1024) (s₂ := S1024x1024) (1 : Fin 2) _ _ _ (ix2 e ⟨1024 + a.val, by omega⟩) rfl rfl (ix2 e a) (fun b hb => by
    match b, hb with
    | ⟨0, _⟩, _ => rfl
    | ⟨1, _⟩, hb => exact absurd rfl hb) (by show a.val + 1024 = 1024 + a.val; omega)).trans ?_
  refine extractStridedSlice_apply _ _ _ _ _ (fun b => by
    match b with
    | ⟨0, _⟩ => show e.val = 0 + e.val; omega
    | ⟨1, _⟩ => show a.val = 0 + a.val; omega)

/-- The low weight block as the kernel reads it: rows 1088..1151 of the query weights beside the same rows of the key
    weights; the conversion to the narrower float type is the identity on extended reals. -/
theorem wl_term (c : Dev nD) :
    (V m c main_v20 : S64x2048.Idx → EReal)
      = truncf (F := Ideal) .bf16 (concatenate S64x2048 1
          [⟨S64x1024, extractStridedSlice S64x1024 ![1088, 0] (argWq m c) slices_S1152x1024_S64x1024_1088_0⟩,
           ⟨S64x1024, extractStridedSlice S64x1024 ![1088, 0] (argWk m c) slices_S1152x1024_S64x1024_1088_0⟩]
          concatenates_S64x1024_S64x1024_S64x2048_d1) bitsLt_bf16_f32 := by
  show StableHlo.after hostOps0 (fun b => m (c, b)) (Proc.devRef .tc main_v20) = _
  after_results

theorem wl_apply_q (c : Dev nD) (e : Fin 64) (a : Fin 1024) :
    (V m c main_v20 : S64x2048.Idx → EReal) (ix2 e (⟨a.val, by omega⟩ : Fin 2048))
      = argWq m c (ix2 (⟨1088 + e.val, by omega⟩ : Fin 1152) a) := by
  rw [wl_term, truncf_apply]
  refine (concatenate_pair_apply_left (t := S64x2048) (s₁ := S64x1024) (s₂ := S64x1024) (1 : Fin 2) _ _ _ (ix2 e ⟨a.val, by omega⟩) rfl (ix2 e a) (fun b => by
    match b with
    | ⟨0, _⟩ => rfl
    | ⟨1, _⟩ => rfl)).trans ?_
  refine extractStridedSlice_apply _ _ _ _ _ (fun b => by
    match b with
    | ⟨0, _⟩ => show 1088 + e.val = 1088 + e.val; omega
    | ⟨1, _⟩ => show a.val = 0 + a.val; omega)

theorem wl_apply_k (c : Dev nD) (e : Fin 64) (a : Fin 1024) :
    (V m c main_v20 : S64x2048.Idx → EReal) (ix2 e (⟨1024 + a.val, by omega⟩ : Fin 2048))
      = argWk m c (ix2 (⟨1088 + e.val, by omega⟩ : Fin 1152) a) := by
  rw [wl_term, truncf_apply]
  refine (concatenate_pair_apply_right (t := S64x2048) (s₁ := S64x1024) (s₂ := S64x1024) (1 : Fin 2) _ _ _ (ix2 e ⟨1024 + a.val, by omega⟩) rfl rfl (ix2 e a) (fun b hb => by
    match b, hb with
    | ⟨0, _⟩, _ => rfl
    | ⟨1, _⟩, hb => exact absurd rfl hb) (by show a.val + 1024 = 1024 + a.val; omega)).trans ?_
  refine extractStridedSlice_apply _ _ _ _ _ (fun b => by
    match b with
    | ⟨0, _⟩ => show 1088 + e.val = 1088 + e.val; omega
    | ⟨1, _⟩ => show a.val = 0 + a.val; omega)

/-- The host product's left operand index: the output row on the free axis. -/
theorem hostdot_lhs_0 (i : S8x1024.Idx) (q : dot_S8x64_S64x1024_S8x1024_1_0_0_1_n_n.contr.Idx) :
    (dot_S8x64_S64x1024_S8x1024_1_0_0_1_n_n.lhsIdx i q 0).val = (i 0).val := by
  unfold DotDims.lhsIdx
  rw [dif_neg (show ¬(0 : Fin S8x64.rank) ∈ dot_S8x64_S64x1024_S8x1024_1_0_0_1_n_n.lhsBatch by decide),
    dif_pos (show (0 : Fin S8x64.rank) ∈ dot_S8x64_S64x1024_S8x1024_1_0_0_1_n_n.lhsNonContracting by decide)]
  rfl

/-- The host product's right operand index: the output column on the free axis. -/
theorem hostdot_rhs_1 (i : S8x1024.Idx) (q : dot_S8x64_S64x1024_S8x1024_1_0_0_1_n_n.contr.Idx) :
    (dot_S8x64_S64x1024_S8x1024_1_0_0_1_n_n.rhsIdx i q 1).val = (i 1).val := by
  unfold DotDims.rhsIdx
  rw [dif_neg (show ¬(1 : Fin S64x1024.rank) ∈ dot_S8x64_S64x1024_S8x1024_1_0_0_1_n_n.rhsBatch by decide),
    dif_pos (show (1 : Fin S64x1024.rank) ∈ dot_S8x64_S64x1024_S8x1024_1_0_0_1_n_n.rhsNonContracting by decide)]
  rfl

/-- The host's [8,64] × [64,1024] product read at an entry: the sum over the 64 contracted positions. -/
theorem hostdot_apply (x : FVec Ideal S8x64 .f32) (w : FVec Ideal S64x1024 .f32) (b : Fin 8) (a : Fin 1024) :
    (Host.dotGeneral (F := Ideal) dot_S8x64_S64x1024_S8x1024_1_0_0_1_n_n none x w : FVec Ideal S8x1024 .f32) (ix2 b a)
      = ∑ k : Fin 64, x (ix2 b k) * w (ix2 k a) := by
  simp only [Host.dotGeneral]
  rw [Ideal.dotGeneral_apply, ← Equiv.sum_comp (ValueIdx.contrEquiv1 dot_S8x64_S64x1024_S8x1024_1_0_0_1_n_n 64 rfl rfl).symm]
  refine Finset.sum_congr rfl fun k _ => ?_
  have hk := ValueIdx.contrEquiv1_symm_val dot_S8x64_S64x1024_S8x1024_1_0_0_1_n_n 64 rfl rfl k
  have el : dot_S8x64_S64x1024_S8x1024_1_0_0_1_n_n.lhsIdx (ix2 b a)
      ((ValueIdx.contrEquiv1 dot_S8x64_S64x1024_S8x1024_1_0_0_1_n_n 64 rfl rfl).symm k) = ix2 b k :=
    funext fun t => Fin.ext (by
      match t with
      | ⟨0, _⟩ => exact hostdot_lhs_0 _ _
      | ⟨1, _⟩ => exact (dot_S8x64_S64x1024_S8x1024_1_0_0_1_n_n.lhsIdx_val_of_single rfl _ _).trans hk)
  have er : dot_S8x64_S64x1024_S8x1024_1_0_0_1_n_n.rhsIdx (ix2 b a)
      ((ValueIdx.contrEquiv1 dot_S8x64_S64x1024_S8x1024_1_0_0_1_n_n 64 rfl rfl).symm k) = ix2 k a :=
    funext fun t => Fin.ext (by
      match t with
      | ⟨0, _⟩ => exact (dot_S8x64_S64x1024_S8x1024_1_0_0_1_n_n.rhsIdx_val_of_single rfl _ _).trans hk
      | ⟨1, _⟩ => exact hostdot_rhs_1 _ _)
  rw [el, er]

/-- One half of the per-batch bias array: g times rows 1024..1087 of a weight matrix, plus the bias broadcast over the
    eight batch rows, given a unit middle axis. -/
abbrev gpart (g : FVec Ideal S8x64 .f32) (W : FVec Ideal S1152x1024 .f32) (bias : FVec Ideal S1024 .f32) :
    FVec Ideal S8x1x1024 .f32 :=
  shapeCast S8x1x1024
    (addf (F := Ideal)
      (Host.dotGeneral (F := Ideal) dot_S8x64_S64x1024_S8x1024_1_0_0_1_n_n none g
        (extractStridedSlice S64x1024 ![1024, 0] W slices_S1152x1024_S64x1024_1024_0 : FVec Ideal S64x1024 .f32))
      (broadcastInDim S8x1024 ![0, 1] bcast_S1x1024_S8x1024_0_1
        (broadcastInDim S1x1024 ![1] bcast_S1024_S1x1024_1 bias)))
    shapeCasts_S8x1024_S8x1x1024

/-- That half at an entry: the sum over the 64 entries of g against rows 1024..1087 of the weight column, plus the
    bias. -/
theorem gpart_apply (g : FVec Ideal S8x64 .f32) (W : FVec Ideal S1152x1024 .f32) (bias : FVec Ideal S1024 .f32)
    (b : Fin 8) (a : Fin 1024) :
    gpart g W bias (ix3 b (0 : Fin 1) a)
      = (∑ e : Fin 64, g (ix2 b e) * W (ix2 (⟨1024 + e.val, by omega⟩ : Fin 1152) a)) + bias (ix1 a) := by
  unfold gpart
  refine (shapeCast_apply _ _ _ (ix2 b a) ?_).trans ?_
  · show (S8x1024.rowMajor (ix2 b a)).val = (S8x1x1024.rowMajor (ix3 b (0 : Fin 1) a)).val
    rw [Shape.rowMajor_val_two, Shape.rowMajor_val_three]
    show b.val * 1024 + a.val = (b.val * 1 + 0) * 1024 + a.val
    omega
  · rw [addf_apply, hostdot_apply]
    refine congrArg₂ (· + ·) (Finset.sum_congr rfl fun e _ => congrArg (g (ix2 b e) * ·) ?_) ?_
    · refine extractStridedSlice_apply _ _ _ _ _ (fun t => by
        match t with
        | ⟨0, _⟩ => show 1024 + e.val = 1024 + e.val; omega
        | ⟨1, _⟩ => show a.val = 0 + a.val; omega)
    · refine (broadcastInDim_apply _ _ _ _ (ix2 (0 : Fin 1) a) (fun t => by
        match t with
        | ⟨0, _⟩ => show (0 : Nat) = if (1 : Nat) = 1 then 0 else b.val; rw [if_pos rfl]
        | ⟨1, _⟩ => show a.val = if (1024 : Nat) = 1 then 0 else a.val; rw [if_neg (by decide)])).trans ?_
      refine broadcastInDim_apply _ _ _ _ (ix1 a) (fun t => by
        match t with
        | ⟨0, _⟩ => show a.val = if (1024 : Nat) = 1 then 0 else a.val; rw [if_neg (by decide)])

/-- The per-batch bias array as the kernel reads it: the query half beside the key half along the channel axis. -/
theorem gbias_term (c : Dev nD) :
    (V m c main_v16 : S8x1x2048.Idx → EReal)
      = concatenate S8x1x2048 2
          [⟨S8x1x1024, gpart (argG m c) (argWq m c) (argBq m c)⟩,
           ⟨S8x1x1024, gpart (argG m c) (argWk m c) (argBk m c)⟩]
          concatenates_S8x1x1024_S8x1x1024_S8x1x2048_d2 := by
  show StableHlo.after hostOps0 (fun b => m (c, b)) (Proc.devRef .tc main_v16) = _
  after_results
  rfl

theorem gbias_apply_q (c : Dev nD) (b : Fin 8) (a : Fin 1024) :
    (V m c main_v16 : S8x1x2048.Idx → EReal) (ix3 b (0 : Fin 1) (⟨a.val, by omega⟩ : Fin 2048))
      = (∑ e : Fin 64, argG m c (ix2 b e) * argWq m c (ix2 (⟨1024 + e.val, by omega⟩ : Fin 1152) a)) + argBq m c (ix1 a) := by
  rw [gbias_term]
  refine (concatenate_pair_apply_left (t := S8x1x2048) (s₁ := S8x1x1024) (s₂ := S8x1x1024) (2 : Fin 3) _ _ _
    (ix3 b (0 : Fin 1) (⟨a.val, by omega⟩ : Fin 2048)) rfl (ix3 b (0 : Fin 1) a) (fun t => by
    match t with
    | ⟨0, _⟩ => rfl
    | ⟨1, _⟩ => rfl
    | ⟨2, _⟩ => rfl)).trans ?_
  exact gpart_apply _ _ _ b a

theorem gbias_apply_k (c : Dev nD) (b : Fin 8) (a : Fin 1024) :
    (V m c main_v16 : S8x1x2048.Idx → EReal) (ix3 b (0 : Fin 1) (⟨1024 + a.val, by omega⟩ : Fin 2048))
      = (∑ e : Fin 64, argG m c (ix2 b e) * argWk m c (ix2 (⟨1024 + e.val, by omega⟩ : Fin 1152) a)) + argBk m c (ix1 a) := by
  rw [gbias_term]
  refine (concatenate_pair_apply_right (t := S8x1x2048) (s₁ := S8x1x1024) (s₂ := S8x1x1024) (2 : Fin 3) _ _ _
    (ix3 b (0 : Fin 1) (⟨1024 + a.val, by omega⟩ : Fin 2048)) rfl rfl (ix3 b (0 : Fin 1) a) (fun t ht => by
    match t, ht with
    | ⟨0, _⟩, _ => rfl
    | ⟨1, _⟩, _ => rfl
    | ⟨2, _⟩, ht => exact absurd rfl ht) (by show a.val + 1024 = 1024 + a.val; omega)).trans ?_
  exact gpart_apply _ _ _ b a

end Cert.KernelIdeal.Prefix

end
-- ==== Proof.Scores.lean ====
/-
  The mathematics both programs compute, stated once over the argument arrays and free of either program.

  For a batch row `b`, a token `s` and an attention channel `a`, a projection's pre-activation is the inner product of the
  extended token `[h b s | g b | l b s]` (1024 + 64 + 64 = 1152 entries) with column `a` of a 1152-row weight matrix, plus a
  bias. The score of token `(b, s)` is the sum over the 1024 channels of relu(query pre-activation) · relu(key pre-activation),
  scaled by 1/32 = 1/sqrt 1024, and replaced by the fill value wherever the mask is 1.

  The inner product over the 1152 entries splits as the sum over the first 1024 (the `h` part), the next 64 (the `g` part)
  and the last 64 (the `l` part). Addition of extended reals is commutative and associative, so the split and any regrouping
  of the four summands hold with no finiteness assumption.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace AttnScores

abbrev Sh : Shape := ⟨3, ![8, 4096, 1024]⟩
abbrev Sm : Shape := ⟨2, ![8, 4096]⟩
abbrev Sg : Shape := ⟨2, ![8, 64]⟩
abbrev Sl : Shape := ⟨3, ![8, 4096, 64]⟩
abbrev Sw : Shape := ⟨2, ![1152, 1024]⟩
abbrev Sb : Shape := ⟨1, ![1024]⟩

/-- Entry `k` of the extended token `[h b s | g b | l b s]`. -/
def xcat (h : Sh.Idx → EReal) (g : Sg.Idx → EReal) (l : Sl.Idx → EReal) (b : Fin 8) (s : Fin 4096) (k : Fin 1152) : EReal :=
  if hk : k.val < 1024 then h (ix3 b s ⟨k.val, hk⟩)
  else if hk2 : k.val < 1088 then g (ix2 b ⟨k.val - 1024, by omega⟩)
  else l (ix3 b s ⟨k.val - 1088, by omega⟩)

/-- A projection's pre-activation at `(b, s, a)`, grouped as (h part + l part) + (g part + bias). -/
def proj (h : Sh.Idx → EReal) (g : Sg.Idx → EReal) (l : Sl.Idx → EReal) (W : Sw.Idx → EReal) (bias : Sb.Idx → EReal)
    (b : Fin 8) (s : Fin 4096) (a : Fin 1024) : EReal :=
  ((∑ e : Fin 1024, h (ix3 b s e) * W (ix2 (⟨e.val, by omega⟩ : Fin 1152) a))
      + (∑ e : Fin 64, l (ix3 b s e) * W (ix2 (⟨1088 + e.val, by omega⟩ : Fin 1152) a)))
    + ((∑ e : Fin 64, g (ix2 b e) * W (ix2 (⟨1024 + e.val, by omega⟩ : Fin 1152) a)) + bias (ix1 a))

/-- The score of every token: the masked, scaled sum over channels of relu(q) · relu(k). -/
def score (h : Sh.Idx → EReal) (mask : Sm.Idx → BitVec 32) (g : Sg.Idx → EReal) (l : Sl.Idx → EReal)
    (Wq : Sw.Idx → EReal) (bq : Sb.Idx → EReal) (Wk : Sw.Idx → EReal) (bk : Sb.Idx → EReal) : Sm.Idx → EReal := fun i =>
  Scalar.select (IntOp.cmpi .eq (mask i) 1#32) (Ideal.ofBits .f32 0xCE6E6B28#32)
    ((∑ a : Fin 1024, max (proj h g l Wq bq (i 0) (i 1) a) 0 * max (proj h g l Wk bk (i 0) (i 1) a) 0)
      * Ideal.ofBits .f32 0x3D000000#32)

/-- A sum over 1152 entries is the sum over the first 1024, plus the next 64, plus the last 64. -/
theorem sum_split (f : Fin 1152 → EReal) :
    ∑ k : Fin 1152, f k = ((∑ e : Fin 1024, f ⟨e.val, by omega⟩) + (∑ e : Fin 64, f ⟨1024 + e.val, by omega⟩))
      + (∑ e : Fin 64, f ⟨1088 + e.val, by omega⟩) := by
  have h1 : ∑ k : Fin 1152, f k = ∑ k : Fin (1024 + (64 + 64)), f (Fin.cast (by norm_num) k) :=
    (Equiv.sum_comp (finCongr (by norm_num : 1024 + (64 + 64) = 1152)) f).symm
  rw [h1, Fin.sum_univ_add, Fin.sum_univ_add, ← add_assoc]
  refine congrArg₂ (· + ·) (congrArg₂ (· + ·) ?_ ?_) ?_ <;>
    refine Finset.sum_congr rfl fun e _ => congrArg f (Fin.ext ?_) <;>
    simp only [Fin.val_cast, Fin.val_castAdd, Fin.val_natAdd] <;> omega

/-- The pre-activation is the inner product of the extended token with the weight column, plus the bias. -/
theorem proj_eq_cat (h : Sh.Idx → EReal) (g : Sg.Idx → EReal) (l : Sl.Idx → EReal) (W : Sw.Idx → EReal) (bias : Sb.Idx → EReal)
    (b : Fin 8) (s : Fin 4096) (a : Fin 1024) :
    (∑ k : Fin 1152, xcat h g l b s k * W (ix2 k a)) + bias (ix1 a) = proj h g l W bias b s a := by
  rw [sum_split]
  have e1 : ∀ e : Fin 1024, xcat h g l b s ⟨e.val, by omega⟩ = h (ix3 b s e) := fun e => by
    unfold xcat; rw [dif_pos (show (⟨e.val, _⟩ : Fin 1152).val < 1024 from e.isLt)]
  have e2 : ∀ e : Fin 64, xcat h g l b s ⟨1024 + e.val, by omega⟩ = g (ix2 b e) := fun e => by
    unfold xcat
    rw [dif_neg (show ¬ (1024 + e.val < 1024) by omega), dif_pos (show 1024 + e.val < 1088 by omega)]
    exact congrArg g (congrArg (ix2 b) (Fin.ext (by show 1024 + e.val - 1024 = e.val; omega)))
  have e3 : ∀ e : Fin 64, xcat h g l b s ⟨1088 + e.val, by omega⟩ = l (ix3 b s e) := fun e => by
    unfold xcat
    rw [dif_neg (show ¬ (1088 + e.val < 1024) by omega), dif_neg (show ¬ (1088 + e.val < 1088) by omega)]
    exact congrArg l (congrArg (ix3 b s) (Fin.ext (by show 1088 + e.val - 1088 = e.val; omega)))
  simp only [e1, e2, e3]
  unfold proj
  abel

/-- The word 0x44800000 is 1024, whose square root is 32; dividing by 32 is multiplying by the word 0x3D000000 = 1/32, at
    every extended real. -/
theorem scale_eq (x : EReal) :
    Ideal.div x (Ideal.sqrt (Ideal.ofBits .f32 0x44800000#32)) = x * Ideal.ofBits .f32 0x3D000000#32 := by
  have h1024 : Ideal.ofBits .f32 0x44800000#32 = ((1024 : ℝ) : EReal) := by
    simp [Ideal.ofBits, Ideal.ieee, -EReal.coe_mul]; norm_num
  have h32 : Ideal.ofBits .f32 0x3D000000#32 = ((1 / 32 : ℝ) : EReal) := by
    simp [Ideal.ofBits, Ideal.ieee, -EReal.coe_mul]; norm_num
  have hs : Real.sqrt 1024 = 32 := by
    rw [show (1024 : ℝ) = 32 ^ 2 by norm_num]; exact Real.sqrt_sq (by norm_num)
  rw [h1024, h32, Ideal.sqrt_coe, if_neg (by norm_num), hs]
  exact Ideal.div_coe (by norm_num) x

end AttnScores

end
-- ==== Proof.KernelValue.lean ====
/-
  The kernel program's result array is the specification's score array.
-/
import proofs.«139711_j89232240541956_2_alg».proof.Proof.BlockReads
import proofs.«139711_j89232240541956_2_alg».proof.Proof.BodyValue
import proofs.«139711_j89232240541956_2_alg».proof.Proof.HostPrefix
import proofs.«139711_j89232240541956_2_alg».proof.Proof.KernelArgs
import proofs.«139711_j89232240541956_2_alg».proof.Proof.Scores

set_option maxRecDepth 16384

noncomputable section

namespace Cert.KernelIdeal.ScoreValue

open Cert.KernelIdeal Cert.KernelIdeal.Gen Cert.KernelIdeal.Args Cert.KernelIdeal.Blocks Cert.KernelIdeal.Body Cert.KernelIdeal.Prefix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The scores laid out as the kernel writes them: token s of batch row b at (b, s / 128, s % 128). -/
def scoreArr (c : Dev nD) : S8x32x128.Idx → EReal := fun i =>
  AttnScores.score (argH m c) (argMask m c) (argG m c) (argL m c) (argWq m c) (argBq m c) (argWk m c) (argBk m c)
    (ix2 (i 0) (⟨128 * (i 1).val + (i 2).val, by have h1 : (i 1).val < 32 := (i 1).isLt; have h2 : (i 2).val < 128 := (i 2).isLt; omega⟩ : Fin 4096))

/-- At point t, block row r's pre-activation in query column a is the specification's query pre-activation of the token the
    row holds: the blocks are the arrays read where the point sits, and the fused arrays' left halves are the query weights
    and the query bias with the global-feature part folded in. -/
theorem pre_q (c : Dev nD) (t : Fin cfg0.N) (r : Fin 1024) (a : Fin 1024) (B : Fin 8) (s : Fin 4096)
    (hB : B.val = win0_6.index t (0 : Fin 3)) (hs : s.val = win0_6.index t (1 : Fin 3) * 1024 + r.val) :
    pre (iblk m c 0 t) (iblk m c 1 t) (iblk m c 2 t) (iblk m c 4 t) (iblk m c 5 t) r (⟨a.val, by omega⟩ : Fin 2048)
      = AttnScores.proj (argH m c) (argG m c) (argL m c) (argWq m c) (argBq m c) B s a := by
  unfold pre AttnScores.proj
  refine congrArg₂ (· + ·) (congrArg₂ (· + ·) (Finset.sum_congr rfl fun e _ => ?_) (Finset.sum_congr rfl fun e _ => ?_)) ?_
  · rw [tok_apply m c t (ix3 (0 : Fin 1) r e) (ix3 B s e) hB hs rfl, V_main_arg0, wh_apply m c t, wh_apply_q]
  · rw [loc_apply m c t (ix3 (0 : Fin 1) r e) (ix3 B s e) hB hs rfl, V_main_arg3, wl_apply m c t, wl_apply_q]
  · rw [bias_apply m c t (ix3 (0 : Fin 1) (0 : Fin 1) (⟨a.val, by omega⟩ : Fin 2048)) (ix3 B (0 : Fin 1) (⟨a.val, by omega⟩ : Fin 2048)) hB rfl, gbias_apply_q]

/-- The same for the key half: fused column 1024 + a. -/
theorem pre_k (c : Dev nD) (t : Fin cfg0.N) (r : Fin 1024) (a : Fin 1024) (B : Fin 8) (s : Fin 4096)
    (hB : B.val = win0_6.index t (0 : Fin 3)) (hs : s.val = win0_6.index t (1 : Fin 3) * 1024 + r.val) :
    pre (iblk m c 0 t) (iblk m c 1 t) (iblk m c 2 t) (iblk m c 4 t) (iblk m c 5 t) r (⟨1024 + a.val, by omega⟩ : Fin 2048)
      = AttnScores.proj (argH m c) (argG m c) (argL m c) (argWk m c) (argBk m c) B s a := by
  unfold pre AttnScores.proj
  refine congrArg₂ (· + ·) (congrArg₂ (· + ·) (Finset.sum_congr rfl fun e _ => ?_) (Finset.sum_congr rfl fun e _ => ?_)) ?_
  · rw [tok_apply m c t (ix3 (0 : Fin 1) r e) (ix3 B s e) hB hs rfl, V_main_arg0, wh_apply m c t, wh_apply_k]
  · rw [loc_apply m c t (ix3 (0 : Fin 1) r e) (ix3 B s e) hB hs rfl, V_main_arg3, wl_apply m c t, wl_apply_k]
  · rw [bias_apply m c t (ix3 (0 : Fin 1) (0 : Fin 1) (⟨1024 + a.val, by omega⟩ : Fin 2048)) (ix3 B (0 : Fin 1) (⟨1024 + a.val, by omega⟩ : Fin 2048)) hB rfl, gbias_apply_k]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body stores at (u, p, q) at point t is the score of the token that element of the output block holds. -/
theorem stored_eq (c : Dev nD) (t : Fin cfg0.N) (u : Fin 1) (p : Fin 8) (q : Fin 128) :
    k0_pay1 (k0_pay2 (iblk m c 0 t) (iblk m c 1 t) (iblk m c 2 t) (iblk m c 3 t) (iblk m c 4 t) (iblk m c 5 t)) (ix3 u p q)
      = scoreArr m c (((cfg0.win 6).blk t).view.emb (ix3 u p q)) := by
  obtain ⟨lt0, lt1, -⟩ := idx_facts t
  have hB : (⟨win0_6.index t (0 : Fin 3), lt0⟩ : Fin 8).val = win0_6.index t (0 : Fin 3) := rfl
  have hR : win0_6.index t (1 : Fin 3) * 8 + p.val < 32 := by have := p.isLt; omega
  have hS : 128 * (win0_6.index t (1 : Fin 3) * 8 + p.val) + q.val < 4096 := by have := q.isLt; omega
  rw [pay_apply (iblk m c 0 t) (iblk m c 1 t) (iblk m c 2 t) (iblk m c 3 t) (iblk m c 4 t) (iblk m c 5 t) u p q,
    out_emb t (ix3 u p q) (ix3 (⟨win0_6.index t (0 : Fin 3), lt0⟩ : Fin 8) (⟨win0_6.index t (1 : Fin 3) * 8 + p.val, hR⟩ : Fin 32) q) rfl rfl rfl]
  show _ = Scalar.select (IntOp.cmpi .eq (argMask m c (ix2 (⟨win0_6.index t (0 : Fin 3), lt0⟩ : Fin 8)
        (⟨128 * (win0_6.index t (1 : Fin 3) * 8 + p.val) + q.val, hS⟩ : Fin 4096))) 1#32) (Ideal.ofBits .f32 0xCE6E6B28#32)
      ((∑ a : Fin 1024,
          max (AttnScores.proj (argH m c) (argG m c) (argL m c) (argWq m c) (argBq m c) (⟨win0_6.index t (0 : Fin 3), lt0⟩ : Fin 8)
                (⟨128 * (win0_6.index t (1 : Fin 3) * 8 + p.val) + q.val, hS⟩ : Fin 4096) a) 0
            * max (AttnScores.proj (argH m c) (argG m c) (argL m c) (argWk m c) (argBk m c) (⟨win0_6.index t (0 : Fin 3), lt0⟩ : Fin 8)
                (⟨128 * (win0_6.index t (1 : Fin 3) * 8 + p.val) + q.val, hS⟩ : Fin 4096) a) 0)
        * Ideal.ofBits .f32 0x3D000000#32)
  refine congrArg₂ (fun x y => Scalar.select (IntOp.cmpi .eq x 1#32) (Ideal.ofBits .f32 0xCE6E6B28#32) (y * Ideal.ofBits .f32 0x3D000000#32))
    ?_ (Finset.sum_congr rfl fun a _ => ?_)
  · rw [msk_apply m c t (ix3 (0 : Fin 1) p q) (ix3 (⟨win0_6.index t (0 : Fin 3), lt0⟩ : Fin 8) (⟨win0_6.index t (1 : Fin 3) * 8 + p.val, hR⟩ : Fin 32) q) rfl rfl rfl,
      mask_apply]
  · have hs : (⟨128 * (win0_6.index t (1 : Fin 3) * 8 + p.val) + q.val, hS⟩ : Fin 4096).val
        = win0_6.index t (1 : Fin 3) * 1024 + (⟨128 * p.val + q.val, by have := p.isLt; have := q.isLt; omega⟩ : Fin 1024).val := by
      show 128 * (win0_6.index t (1 : Fin 3) * 8 + p.val) + q.val = win0_6.index t (1 : Fin 3) * 1024 + (128 * p.val + q.val); omega
    rw [pre_q m c t _ a _ _ hB hs, pre_k m c t _ a _ _ hB hs]

/-- WHAT POINT t WRITES BACK is block t of the score array. -/
theorem flushed_eq (c : Dev nD) (t : Fin cfg0.N) :
    (dats m 0 c).flushed 6 t = ((cfg0.win 6).blk t).view.read (Elt Ideal) (scoreArr m c) := by
  show (cfg0.win 6).cut (grid0.coords t) ((dats m 0 c).after 6 t) = _
  rw [after0_6]
  unfold out0_6
  rw [View.canon_unit_zero hz3]
  simp only [View.ld_unit_zero (S := S1x1024x1024) hz3, View.ld_unit_zero (S := S1x1024x64) hz3, View.ld_unit_zero (S := S1x1x2048) hz3,
    View.ld_unit_zero (S := S1x8x128) hz3, View.ld_unit_zero (S := S1024x2048) hz2, View.ld_unit_zero (S := S64x2048) hz2]
  funext j
  show k0_pay1 (k0_pay2 (iblk m c 0 t) (iblk m c 1 t) (iblk m c 2 t) (iblk m c 3 t) (iblk m c 4 t) (iblk m c 5 t)) j
    = scoreArr m c (((cfg0.win 6).blk t).view.emb j)
  have hj : (j : S1x8x128.Idx) = ix3 (j 0) (j 1) (j 2) := eq_ix3 j
  rw [hj]
  exact stored_eq m c t (j 0) (j 1) (j 2)

/-- THE OUTPUT ARRAY after the run is the score array: every index is in the block of the point of its batch row and token tile. -/
theorem final (c : Dev nD) : (dats m 0 c).arrAt 6 cfg0.N = scoreArr m c :=
  (dats m 0 c).arrAt_eq_of_cover 6 (scoreArr m c) (fun t _ => flushed_eq m c t) cover

end Cert.KernelIdeal.ScoreValue

end
-- ==== Proof.KernelTail.lean ====
/-
  The one host line after the kernel launch.

  The launch leaves its result as an array of shape 8 × 32 × 128: the 4096 tokens of a batch row laid out as 32 rows of
  128. The program's last line reshapes it to 8 × 4096. A reshape keeps the elements in row-major order, so token `s` of
  batch row `b`, at row-major position `b · 4096 + s`, is the element at `(b, s / 128, s % 128)`, whose row-major
  position is `(b · 32 + s / 128) · 128 + s % 128` — the same number, since `s = (s / 128) · 128 + s % 128`.
-/
import proofs.«139711_j89232240541956_2_alg».proof.Proof.Gen.KernelIdeal.Frame
import Idealize.ShloMosaic.PureOps.Ideal
import Idealize.ShloMosaic.Lib.Pipeline.Value
import Idealize.ShloMosaic.Lib.ValueIdx
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- After the last line the result buffer holds the reshape of the launch's output array: the line reads the array the
    region left (the seventh window's) and writes its elements, in row-major order, under the shape 8 × 4096. -/
theorem tail_eq (c : Dev nD) (G : S8x32x128.Idx → EReal) (hfinal : (dats m 0 c).arrAt 6 cfg0.N = G) :
    Pipeline.afterTail₀ cfgs (dats m) 0 (V0 m) [hostOps1] c main_v23 = shapeCast S8x4096 G shapeCasts_S8x32x128_S8x4096 := by
  unfold Pipeline.afterTail₀
  show StableHlo.after hostOps1 _ (Proc.devRef .tc main_v23) = _
  after_results
  have hA : Pipeline.withArrays (cfgs 0).spec c (V0 m c) (fun w => (dats m 0 c).arrAt w (cfgs 0).N) (Proc.devRef .tc main_v22) = G :=
    (Pipeline.withArrays_arr spec0 launch0.win.arr_inj c _ _ 6).trans hfinal
  exact congrArg (fun A => shapeCast S8x4096 A shapeCasts_S8x32x128_S8x4096) hA

/-- The result at token `s` of batch row `b` is the launch's output at `(b, s / 128, s % 128)`: both sit at row-major
    position `b · 4096 + s`. -/
theorem tail_apply (c : Dev nD) (G : S8x32x128.Idx → EReal) (hfinal : (dats m 0 c).arrAt 6 cfg0.N = G) (b : Fin 8) (s : Fin 4096) :
    Pipeline.afterTail₀ cfgs (dats m) 0 (V0 m) [hostOps1] c main_v23 (ix2 b s)
      = G (ix3 b (⟨s.val / 128, by omega⟩ : Fin 32) (⟨s.val % 128, Nat.mod_lt _ (by norm_num)⟩ : Fin 128)) := by
  rw [tail_eq m c G hfinal]
  refine shapeCast_apply G shapeCasts_S8x32x128_S8x4096 (ix2 b s) _ ?_
  rw [Shape.rowMajor_val_three, Shape.rowMajor_val_two]
  show (b.val * 32 + s.val / 128) * 128 + s.val % 128 = b.val * 4096 + s.val
  omega

/-- The frame run's post, read at the result buffer: it is no window's array, so it ends as the last line leaves it. -/
theorem result_post (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v23) = Pipeline.afterTail₀ cfgs (dats m) 0 (V0 m) [hostOps1] c main_v23 :=
  (h c).2 main_v23 (Pipeline.mem_restRefs_of main_v23 (by decide) (by decide))

end Cert.KernelIdeal.Tail

end
-- ==== Proof.KernelRun.lean ====
/-
  The kernel program's run, read: its result buffer ends at the specification's scores of the argument arrays, and the
  argument arrays end unchanged.

  The output array is the score array laid out as [8, 32, 128] (token s of batch row b at (b, s / 128, s % 128)); the one
  host line after the launch re-lays it as [8, 4096], and 128 · (s / 128) + s % 128 = s.
-/
import proofs.«139711_j89232240541956_2_alg».proof.Proof.KernelValue
import proofs.«139711_j89232240541956_2_alg».proof.Proof.KernelTail

set_option maxRecDepth 16384

noncomputable section

namespace Cert.KernelIdeal.ScoreValue

open Cert.KernelIdeal Cert.KernelIdeal.Gen Cert.KernelIdeal.Args
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The scores of the argument arrays as launched. -/
def result (c : Dev nD) : S8x4096.Idx → EReal :=
  AttnScores.score (argH m c) (argMask m c) (argG m c) (argL m c) (argWq m c) (argBq m c) (argWk m c) (argBk m c)

/-- After the frame run the result buffer holds the scores. -/
theorem result_eq (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v23) = result m c := by
  have key : ∀ (b : Fin 8) (s : Fin 4096),
      Pipeline.afterTail₀ cfgs (dats m) 0 (V0 m) [hostOps1] c main_v23 (ix2 b s) = result m c (ix2 b s) := by
    intro b s
    refine (Cert.KernelIdeal.Tail.tail_apply m c (scoreArr m c) (final m c) b s).trans ?_
    unfold scoreArr result
    refine congrArg _ (congrArg (ix2 b) (Fin.ext ?_))
    show 128 * (s.val / 128) + s.val % 128 = s.val
    exact Nat.div_add_mod s.val 128
  refine (Cert.KernelIdeal.Tail.result_post m c r h).trans (funext fun (i : S8x4096.Idx) => ?_)
  have hi : i = ix2 (i 0) (i 1) := eq_ix2 i
  rw [hi]
  exact key (i 0) (i 1)

/-- After the frame run every argument array is as launched: a staged input by the library's reading of an input window's array,
    an array no window stages by the post's second clause. -/
theorem kept (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans (((dats m 0 c).arrAt_in 1 rfl _).trans ((A_eq m c 1).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩

/-- THE RUN: every weakly fair execution of the kernel program terminates with the result buffer at the scores of the
    arguments and the arguments unchanged. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨result_eq m c r h, kept m c r h⟩) (run_main m ρ)

end Cert.KernelIdeal.ScoreValue

end
-- ==== Proof.RefScores.lean ====
/-
  The reference is the specification.

  Read one stage at a time, the reference program joins, for every token, the token's 1024 hidden entries, the 64 entries
  of its batch row's vector (broadcast over the tokens) and the token's own 64 further entries into one extended token
  of 1152 entries; contracts it with a 1152-row weight matrix and adds a bias, once for the query and once for the
  key; rectifies both (the maximum with zero); multiplies them entrywise and sums over the 1024 channels; divides by
  the square root of 1024; and puts the fill value wherever the mask equals 1. Each step below identifies one of these
  stages, at an index, with the corresponding piece of the specification, and the last theorem assembles them.
-/
import proofs.«139711_j89232240541956_2_alg».proof.Proof.Gen.ReferenceIdeal.Read
import proofs.«139711_j89232240541956_2_alg».proof.Proof.Scores
import Idealize.ShloMosaic.Lib.Pipeline.Value
import Idealize.ShloMosaic.Lib.ValueIdx
import Idealize.ShloMosaic.PureOps.Ideal.Laws

noncomputable section

open Cert.ReferenceIdeal Cert.ReferenceIdeal.Read Idealize.ShloMosaic Idealize.ShloMosaic.ValueIdx

namespace Cert.ReferenceIdeal.RefValue

/-- The joined array at the index `(i 0, i 1, k)` is entry `k` of the extended token `[h | g | l]`: the first 1024
    entries come from the first operand, the next 64 from the twice-broadcast per-row vector, the last 64 from the third. -/
theorem cat_apply (x0 : (⟨S8x4096x1024, .f32⟩ : BufTy).Contents (Elt Ideal)) (x2 : (⟨S8x64, .f32⟩ : BufTy).Contents (Elt Ideal)) (x3 : (⟨S8x4096x64, .f32⟩ : BufTy).Contents (Elt Ideal)) (i : S8x4096x1024.Idx) (k : Fin 1152) :
    val_main_v2 (F := Ideal) x0 x2 x3 (lidx_main_v3 i k) = AttnScores.xcat x0 x2 x3 (i 0) (i 1) k := by
  unfold val_main_v2 AttnScores.xcat
  by_cases h1 : k.val < 1024
  · rw [dif_pos h1]
    refine concatenate_apply_piece _ _ _ (lidx_main_v3 i k) 0 (by show (0 : Nat) < 3; omega) S8x4096x1024 x0 rfl rfl 0 rfl
      (ix3 (i 0) (i 1) ⟨k.val, h1⟩) (fun b hb => ?_) ?_
    · match b with
      | ⟨0, _⟩ => rfl
      | ⟨1, _⟩ => rfl
      | ⟨2, _⟩ => exact absurd rfl hb
    · show 0 + k.val = k.val
      omega
  · rw [dif_neg h1]
    by_cases h2 : k.val < 1088
    · rw [dif_pos h2]
      have hk : k.val - 1024 < 64 := by omega
      have e : val_main_v1 (F := Ideal) x2 (ix3 (i 0) (i 1) ⟨k.val - 1024, hk⟩) = x2 (ix2 (i 0) ⟨k.val - 1024, hk⟩) := by
        rw [val_main_v1_apply, val_main_v0_apply]
        exact congrArg x2 (funext fun a => Fin.ext (by match a with | ⟨0, _⟩ => rfl | ⟨1, _⟩ => rfl))
      rw [← e]
      refine concatenate_apply_piece _ _ _ (lidx_main_v3 i k) 1 (by show (1 : Nat) < 3; omega) S8x4096x64 (val_main_v1 (F := Ideal) x2) rfl rfl 1024 rfl
        (ix3 (i 0) (i 1) ⟨k.val - 1024, hk⟩) (fun b hb => ?_) ?_
      · match b with
        | ⟨0, _⟩ => rfl
        | ⟨1, _⟩ => rfl
        | ⟨2, _⟩ => exact absurd rfl hb
      · show 1024 + (k.val - 1024) = k.val
        omega
    · rw [dif_neg h2]
      have hk : k.val - 1088 < 64 := by have := k.isLt; omega
      refine concatenate_apply_piece _ _ _ (lidx_main_v3 i k) 2 (by show (2 : Nat) < 3; omega) S8x4096x64 x3 rfl rfl 1088 rfl
        (ix3 (i 0) (i 1) ⟨k.val - 1088, hk⟩) (fun b hb => ?_) ?_
      · match b with
        | ⟨0, _⟩ => rfl
        | ⟨1, _⟩ => rfl
        | ⟨2, _⟩ => exact absurd rfl hb
      · show 1088 + (k.val - 1088) = k.val
        omega

/-- The query pre-activation of the reference is the specification's: the contraction over the 1152 joined entries plus
    the broadcast bias, regrouped by the split of the sum. -/
theorem proj_q_apply (x0 : (⟨S8x4096x1024, .f32⟩ : BufTy).Contents (Elt Ideal)) (x2 : (⟨S8x64, .f32⟩ : BufTy).Contents (Elt Ideal)) (x3 : (⟨S8x4096x64, .f32⟩ : BufTy).Contents (Elt Ideal)) (x4 : (⟨S1152x1024, .f32⟩ : BufTy).Contents (Elt Ideal)) (x5 : (⟨S1024, .f32⟩ : BufTy).Contents (Elt Ideal)) (i : S8x4096x1024.Idx) :
    val_main_v6 (F := Ideal) x0 x2 x3 x4 x5 i = AttnScores.proj x0 x2 x3 x4 x5 (i 0) (i 1) (i 2) := by
  rw [val_main_v6_apply, val_main_v3_apply, val_main_v5_apply, val_main_v4_apply]
  refine Eq.trans ?_ (AttnScores.proj_eq_cat x0 x2 x3 x4 x5 (i 0) (i 1) (i 2))
  refine congrArg₂ (· + ·) (Finset.sum_congr rfl fun k _ => ?_) ?_
  · rw [cat_apply]
    exact congrArg (_ * ·) (congrArg x4 (funext fun a => Fin.ext (by match a with | ⟨0, _⟩ => rfl | ⟨1, _⟩ => rfl)))
  · exact congrArg x5 (funext fun a => Fin.ext (by match a with | ⟨0, _⟩ => rfl))

/-- The key pre-activation, by the same reading with the key's weights and bias. -/
theorem proj_k_apply (x0 : (⟨S8x4096x1024, .f32⟩ : BufTy).Contents (Elt Ideal)) (x2 : (⟨S8x64, .f32⟩ : BufTy).Contents (Elt Ideal)) (x3 : (⟨S8x4096x64, .f32⟩ : BufTy).Contents (Elt Ideal)) (x6 : (⟨S1152x1024, .f32⟩ : BufTy).Contents (Elt Ideal)) (x7 : (⟨S1024, .f32⟩ : BufTy).Contents (Elt Ideal)) (i : S8x4096x1024.Idx) :
    val_main_v11 (F := Ideal) x0 x2 x3 x6 x7 i = AttnScores.proj x0 x2 x3 x6 x7 (i 0) (i 1) (i 2) := by
  rw [val_main_v11_apply, val_main_v8_apply, val_main_v10_apply, val_main_v9_apply]
  refine Eq.trans ?_ (AttnScores.proj_eq_cat x0 x2 x3 x6 x7 (i 0) (i 1) (i 2))
  refine congrArg₂ (· + ·) (Finset.sum_congr rfl fun k _ => ?_) ?_
  · rw [show lidx_main_v8 i k = lidx_main_v3 i k from rfl, cat_apply]
    exact congrArg (_ * ·) (congrArg x6 (funext fun a => Fin.ext (by match a with | ⟨0, _⟩ => rfl | ⟨1, _⟩ => rfl)))
  · exact congrArg x7 (funext fun a => Fin.ext (by match a with | ⟨0, _⟩ => rfl))

/-- The rectified query: the maximum of the pre-activation and the zero word, which is 0. -/
theorem relu_q_apply (x0 : (⟨S8x4096x1024, .f32⟩ : BufTy).Contents (Elt Ideal)) (x2 : (⟨S8x64, .f32⟩ : BufTy).Contents (Elt Ideal)) (x3 : (⟨S8x4096x64, .f32⟩ : BufTy).Contents (Elt Ideal)) (x4 : (⟨S1152x1024, .f32⟩ : BufTy).Contents (Elt Ideal)) (x5 : (⟨S1024, .f32⟩ : BufTy).Contents (Elt Ideal)) (i : S8x4096x1024.Idx) :
    val_main_v7 (F := Ideal) x0 x2 x3 x4 x5 i = max (AttnScores.proj x0 x2 x3 x4 x5 (i 0) (i 1) (i 2)) 0 := by
  rw [val_main_v7_apply, val_main_call0_v0_apply, val_main_call0_cst_apply, proj_q_apply]
  show max _ (Ideal.ofBits .f32 0x00000000#32) = _
  rw [Ideal.ofBits_zero_f32]

/-- The rectified key. -/
theorem relu_k_apply (x0 : (⟨S8x4096x1024, .f32⟩ : BufTy).Contents (Elt Ideal)) (x2 : (⟨S8x64, .f32⟩ : BufTy).Contents (Elt Ideal)) (x3 : (⟨S8x4096x64, .f32⟩ : BufTy).Contents (Elt Ideal)) (x6 : (⟨S1152x1024, .f32⟩ : BufTy).Contents (Elt Ideal)) (x7 : (⟨S1024, .f32⟩ : BufTy).Contents (Elt Ideal)) (i : S8x4096x1024.Idx) :
    val_main_v12 (F := Ideal) x0 x2 x3 x6 x7 i = max (AttnScores.proj x0 x2 x3 x6 x7 (i 0) (i 1) (i 2)) 0 := by
  rw [val_main_v12_apply, val_main_call1_v0_apply, val_main_call1_cst_apply, proj_k_apply]
  show max _ (Ideal.ofBits .f32 0x00000000#32) = _
  rw [Ideal.ofBits_zero_f32]

/-- The sum over the 1024 channels of the product of the two rectified pre-activations; the initial value is the zero
    word, which adds nothing. -/
theorem sum_apply (x0 : (⟨S8x4096x1024, .f32⟩ : BufTy).Contents (Elt Ideal)) (x2 : (⟨S8x64, .f32⟩ : BufTy).Contents (Elt Ideal)) (x3 : (⟨S8x4096x64, .f32⟩ : BufTy).Contents (Elt Ideal)) (x4 : (⟨S1152x1024, .f32⟩ : BufTy).Contents (Elt Ideal)) (x5 : (⟨S1024, .f32⟩ : BufTy).Contents (Elt Ideal)) (x6 : (⟨S1152x1024, .f32⟩ : BufTy).Contents (Elt Ideal)) (x7 : (⟨S1024, .f32⟩ : BufTy).Contents (Elt Ideal)) (i : S8x4096.Idx) :
    val_main_v19 (F := Ideal) x0 x2 x3 x4 x5 x6 x7 i
      = ∑ a : Fin 1024, max (AttnScores.proj x0 x2 x3 x4 x5 (i 0) (i 1) a) 0 * max (AttnScores.proj x0 x2 x3 x6 x7 (i 0) (i 1) a) 0 := by
  rw [val_main_v19_apply, val_main_cst_apply]
  show Ideal.ofBits .f32 0x00000000#32 + _ = _
  rw [Ideal.ofBits_zero_f32, zero_add]
  refine Finset.sum_congr rfl fun a _ => ?_
  rw [val_main_v18_apply, relu_q_apply, relu_k_apply]
  rfl

/-- **The reference is the specification**: the masked, scaled sum over channels of the product of the rectified query and
    key pre-activations. Dividing by the square root of 1024 is multiplying by 1/32. -/
theorem val_eq_score (x0 : (⟨S8x4096x1024, .f32⟩ : BufTy).Contents (Elt Ideal)) (x1 : (⟨S8x4096, .i32⟩ : BufTy).Contents (Elt Ideal)) (x2 : (⟨S8x64, .f32⟩ : BufTy).Contents (Elt Ideal)) (x3 : (⟨S8x4096x64, .f32⟩ : BufTy).Contents (Elt Ideal)) (x4 : (⟨S1152x1024, .f32⟩ : BufTy).Contents (Elt Ideal)) (x5 : (⟨S1024, .f32⟩ : BufTy).Contents (Elt Ideal)) (x6 : (⟨S1152x1024, .f32⟩ : BufTy).Contents (Elt Ideal)) (x7 : (⟨S1024, .f32⟩ : BufTy).Contents (Elt Ideal)) :
    val_main_v25 (F := Ideal) x0 x1 x2 x3 x4 x5 x6 x7 = AttnScores.score x0 x1 x2 x3 x4 x5 x6 x7 := by
  funext i
  rw [val_main_v25_apply, val_main_v24_apply, val_main_v23_apply, val_main_c_apply, val_main_call3_v0_apply,
    val_main_cst_1_apply, val_main_v22_apply, val_main_v21_apply, val_main_v20_apply, val_main_cst_0_apply, sum_apply,
    Ideal.hostDivf_def, Ideal.hostUnary_sqrt_def]
  show Scalar.select _ _ (Ideal.div _ (Ideal.sqrt (Ideal.ofBits .f32 0x44800000#32))) = _
  rw [AttnScores.scale_eq]
  rfl

end Cert.ReferenceIdeal.RefValue

end
-- ==== Proof.lean ====
/-
  The certificate: the Pallas kernel of per-token attention scores against its jnp reference, over the extended reals.

  Both programs compute, for every batch row b and token s, the sum over the 1024 attention channels of
  relu(query pre-activation) · relu(key pre-activation), scaled by 1/32 and replaced by the fill value where the mask is 1; a
  pre-activation is the inner product of the extended token [h b s | g b | l b s] (1152 entries) with a weight column, plus a
  bias (Proof/Scores.lean states this once, free of either program). The reference concatenates and contracts over all 1152
  entries; the kernel program contracts the h part and the l part inside the kernel, folds the g part into a per-batch bias on
  the host, and fuses the query and key weights side by side. The two groupings of the same four summands agree because
  addition of extended reals is commutative and associative; the reference's division by sqrt 1024 is the kernel's product with
  1/32 at every extended real. No finiteness of the inputs is used.

  The three frames: the kernel program's at the word-level and at the ideal instance are the generated frame certificates; the
  reference has no kernel, and its frame is its generated run with the result dropped. The ideal pass rewrote nothing, so the
  preservation conjunct is `True`.
-/
import proofs.«139711_j89232240541956_2_alg».proof.Defs
import proofs.«139711_j89232240541956_2_alg».proof.Proof.Gen.Kernel
import proofs.«139711_j89232240541956_2_alg».proof.Proof.Gen.Kernel.Skeleton
import proofs.«139711_j89232240541956_2_alg».proof.Proof.Gen.Kernel.Launch
import proofs.«139711_j89232240541956_2_alg».proof.Proof.Gen.Kernel.Points
import proofs.«139711_j89232240541956_2_alg».proof.Proof.Gen.Kernel.Frame
import proofs.«139711_j89232240541956_2_alg».proof.Proof.Gen.KernelIdeal
import proofs.«139711_j89232240541956_2_alg».proof.Proof.Gen.KernelIdeal.Skeleton
import proofs.«139711_j89232240541956_2_alg».proof.Proof.Gen.KernelIdeal.Launch
import proofs.«139711_j89232240541956_2_alg».proof.Proof.Gen.KernelIdeal.Points
import proofs.«139711_j89232240541956_2_alg».proof.Proof.Gen.KernelIdeal.Frame
import proofs.«139711_j89232240541956_2_alg».proof.Proof.Gen.ReferenceIdeal
import proofs.«139711_j89232240541956_2_alg».proof.Proof.Gen.ReferenceIdeal.Run
import proofs.«139711_j89232240541956_2_alg».proof.Proof.Gen.ReferenceIdeal.Read
import proofs.«139711_j89232240541956_2_alg».proof.Proof.Gen.Pre_finite_inputs
import proofs.«139711_j89232240541956_2_alg».proof.Proof.KernelRun
import proofs.«139711_j89232240541956_2_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel program's result buffer ends at the scores of its arguments and the
    reference's at its composed term of its arguments, which is the same scores: one function of the same arrays. -/
theorem algebraic : Cert.algebraic_KernelIdeal_ReferenceIdeal := by
  intro m ρ m' ρ' _ hagree
  refine ⟨fun c => Cert.KernelIdeal.ScoreValue.result m c, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, -, -⟩ := hagree c
  rw [Cert.ReferenceIdeal.Read.val_main_v25_eq, Cert.ReferenceIdeal.RefValue.val_eq_score, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
